-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50 : Shape := ⟨2, ![4096, 50]⟩
abbrev S4096x50x4x64 : Shape := ⟨4, ![4096, 50, 4, 64]⟩
abbrev S4096x4x50 : Shape := ⟨3, ![4096, 4, 50]⟩
abbrev S_ : Shape := ⟨0, ![]⟩

class Facts : Prop where
  bcast_S_S4096x50x4x64 : S_.BroadcastsInDim S4096x50x4x64 (![] : Fin 0 → Fin S4096x50x4x64.rank)
  reducesTo_S4096x50x4x64_S_d0_1_2_3 : S4096x50x4x64.ReducesTo [0, 1, 2, 3] S_
  h_S_ : 0 < S_.numel
  bcast_S_S4096x4x50 : S_.BroadcastsInDim S4096x4x50 (![] : Fin 0 → Fin S4096x4x50.rank)
  reducesTo_S4096x4x50_S_d0_1_2 : S4096x4x50.ReducesTo [0, 1, 2] S_

variable [Facts]

def fn {F : FTy → Type} [FloatOps F] (main_arg0 : IVec S4096x50 32) (main_arg1 : FVec F S4096x50x4x64 .f32) (main_arg2 : FVec F S4096x4x50 .f32) : IVec S_ 1 :=
  let main_v0 : FVec F S4096x50x4x64 .f32 := Host.absf main_arg1
  let main_cst : FVec F S_ .f32 := constant S_ .f32 0x7F800000#32
  let main_v1 : FVec F S4096x50x4x64 .f32 := broadcastInDim S4096x50x4x64 ![] bcast_S_S4096x50x4x64 main_cst
  let main_v2 : IVec S4096x50x4x64 1 := cmpf .olt main_v0 main_v1
  let main_c : IVec S_ 1 := constantI S_ 1 1#1
  let main_v3 : IVec S_ 1 := (fun x v => Host.reduce IntOp.andi x v reducesTo_S4096x50x4x64_S_d0_1_2_3 h_S_) main_v2 main_c
  let main_v4 : FVec F S4096x4x50 .f32 := Host.absf main_arg2
  let main_cst_0 : FVec F S_ .f32 := constant S_ .f32 0x7F800000#32
  let main_v5 : FVec F S4096x4x50 .f32 := broadcastInDim S4096x4x50 ![] bcast_S_S4096x4x50 main_cst_0
  let main_v6 : IVec S4096x4x50 1 := cmpf .olt main_v4 main_v5
  let main_c_1 : IVec S_ 1 := constantI S_ 1 1#1
  let main_v7 : IVec S_ 1 := (fun x v => Host.reduce IntOp.andi x v reducesTo_S4096x4x50_S_d0_1_2 h_S_) main_v6 main_c_1
  let main_v8 : IVec S_ 1 := andi main_v3 main_v7
  main_v8
-- ==== Kernel.lean ====
abbrev S4096x50 : Shape := ⟨2, ![4096, 50]⟩
abbrev S4096x50x4x64 : Shape := ⟨4, ![4096, 50, 4, 64]⟩
abbrev S4096x4x50 : Shape := ⟨3, ![4096, 4, 50]⟩
abbrev S4096x50x256 : Shape := ⟨3, ![4096, 50, 256]⟩
abbrev S4096x1x50 : Shape := ⟨3, ![4096, 1, 50]⟩
abbrev S_ : Shape := ⟨0, ![]⟩
abbrev S4x50 : Shape := ⟨2, ![4, 50]⟩
abbrev S1x4x50 : Shape := ⟨3, ![1, 4, 50]⟩
abbrev S128x50x256 : Shape := ⟨3, ![128, 50, 256]⟩
abbrev S128x4x50 : Shape := ⟨3, ![128, 4, 50]⟩
abbrev S128x50x64 : Shape := ⟨3, ![128, 50, 64]⟩
abbrev S128x1x50 : Shape := ⟨3, ![128, 1, 50]⟩
abbrev S128x50 : Shape := ⟨2, ![128, 50]⟩
abbrev S128x50x1 : Shape := ⟨3, ![128, 50, 1]⟩
abbrev S128x64 : Shape := ⟨2, ![128, 64]⟩
abbrev S128 : Shape := ⟨1, ![128]⟩
abbrev S128x1 : Shape := ⟨2, ![128, 1]⟩
abbrev S128x1x64 : Shape := ⟨3, ![128, 1, 64]⟩
abbrev S4096x4x64 : Shape := ⟨3, ![4096, 4, 64]⟩
abbrev S128x4x64 : Shape := ⟨3, ![128, 4, 64]⟩

abbrev nBuf : Space → Nat
  | .hbm => 69
  | .vmem => 22
  | .smem => 0
  | _ => 0

abbrev bufTy : (tb : Table) → Fin (tcTables nBuf tb) → BufTy
  | .hbm, ⟨0, _⟩ => ⟨S4096x50, .i32⟩
  | .hbm, ⟨1, _⟩ => ⟨S4096x50x4x64, .f32⟩
  | .hbm, ⟨2, _⟩ => ⟨S4096x4x50, .f32⟩
  | .hbm, ⟨3, _⟩ => ⟨S4096x50x256, .f32⟩
  | .hbm, ⟨4, _⟩ => ⟨S4096x1x50, .i32⟩
  | .hbm, ⟨5, _⟩ => ⟨S4096x4x50, .i32⟩
  | .hbm, ⟨6, _⟩ => ⟨S_, .f32⟩
  | .hbm, ⟨7, _⟩ => ⟨S4x50, .f32⟩
  | .hbm, ⟨8, _⟩ => ⟨S_, .f32⟩
  | .hbm, ⟨9, _⟩ => ⟨S4x50, .f32⟩
  | .hbm, ⟨10, _⟩ => ⟨S4x50, .f32⟩
  | .hbm, ⟨11, _⟩ => ⟨S1x4x50, .f32⟩
  | .hbm, ⟨12, _⟩ => ⟨S4096x4x50, .f32⟩
  | .hbm, ⟨13, _⟩ => ⟨S4096x4x50, .f32⟩
  | .hbm, ⟨14, _⟩ => ⟨S4096x4x50, .f32⟩
  | .hbm, ⟨15, _⟩ => ⟨S_, .f32⟩
  | .hbm, ⟨16, _⟩ => ⟨S4x50, .f32⟩
  | .hbm, ⟨17, _⟩ => ⟨S1x4x50, .f32⟩
  | .hbm, ⟨18, _⟩ => ⟨S4096x4x50, .f32⟩
  | .hbm, ⟨19, _⟩ => ⟨S4096x4x50, .f32⟩
  | .hbm, ⟨20, _⟩ => ⟨S_, .i32⟩
  | .hbm, ⟨21, _⟩ => ⟨S4096x4x50, .i32⟩
  | .hbm, ⟨22, _⟩ => ⟨S4096x4x50, .i1⟩
  | .hbm, ⟨23, _⟩ => ⟨S_, .f32⟩
  | .hbm, ⟨24, _⟩ => ⟨S4096x4x50, .f32⟩
  | .hbm, ⟨25, _⟩ => ⟨S4096x4x50, .f32⟩
  | .hbm, ⟨26, _⟩ => ⟨S4096x4x50, .f32⟩
  | .hbm, ⟨27, _⟩ => ⟨S_, .f32⟩
  | .hbm, ⟨28, _⟩ => ⟨S4x50, .f32⟩
  | .hbm, ⟨29, _⟩ => ⟨S_, .f32⟩
  | .hbm, ⟨30, _⟩ => ⟨S4x50, .f32⟩
  | .hbm, ⟨31, _⟩ => ⟨S4x50, .f32⟩
  | .hbm, ⟨32, _⟩ => ⟨S1x4x50, .f32⟩
  | .hbm, ⟨33, _⟩ => ⟨S4096x4x50, .f32⟩
  | .hbm, ⟨34, _⟩ => ⟨S4096x4x50, .f32⟩
  | .hbm, ⟨35, _⟩ => ⟨S4096x4x50, .f32⟩
  | .hbm, ⟨36, _⟩ => ⟨S_, .f32⟩
  | .hbm, ⟨37, _⟩ => ⟨S4x50, .f32⟩
  | .hbm, ⟨38, _⟩ => ⟨S1x4x50, .f32⟩
  | .hbm, ⟨39, _⟩ => ⟨S4096x4x50, .f32⟩
  | .hbm, ⟨40, _⟩ => ⟨S4096x4x50, .f32⟩
  | .hbm, ⟨41, _⟩ => ⟨S_, .i32⟩
  | .hbm, ⟨42, _⟩ => ⟨S4096x4x50, .i32⟩
  | .hbm, ⟨43, _⟩ => ⟨S4096x4x50, .i1⟩
  | .hbm, ⟨44, _⟩ => ⟨S_, .f32⟩
  | .hbm, ⟨45, _⟩ => ⟨S4096x4x50, .f32⟩
  | .hbm, ⟨46, _⟩ => ⟨S4096x4x50, .f32⟩
  | .hbm, ⟨47, _⟩ => ⟨S4096x4x50, .f32⟩
  | .hbm, ⟨48, _⟩ => ⟨S_, .f32⟩
  | .hbm, ⟨49, _⟩ => ⟨S4x50, .f32⟩
  | .hbm, ⟨50, _⟩ => ⟨S_, .f32⟩
  | .hbm, ⟨51, _⟩ => ⟨S4x50, .f32⟩
  | .hbm, ⟨52, _⟩ => ⟨S4x50, .f32⟩
  | .hbm, ⟨53, _⟩ => ⟨S1x4x50, .f32⟩
  | .hbm, ⟨54, _⟩ => ⟨S4096x4x50, .f32⟩
  | .hbm, ⟨55, _⟩ => ⟨S4096x4x50, .f32⟩
  | .hbm, ⟨56, _⟩ => ⟨S4096x4x50, .f32⟩
  | .hbm, ⟨57, _⟩ => ⟨S_, .f32⟩
  | .hbm, ⟨58, _⟩ => ⟨S4x50, .f32⟩
  | .hbm, ⟨59, _⟩ => ⟨S1x4x50, .f32⟩
  | .hbm, ⟨60, _⟩ => ⟨S4096x4x50, .f32⟩
  | .hbm, ⟨61, _⟩ => ⟨S4096x4x50, .f32⟩
  | .hbm, ⟨62, _⟩ => ⟨S_, .i32⟩
  | .hbm, ⟨63, _⟩ => ⟨S4096x4x50, .i32⟩
  | .hbm, ⟨64, _⟩ => ⟨S4096x4x50, .i1⟩
  | .hbm, ⟨65, _⟩ => ⟨S_, .f32⟩
  | .hbm, ⟨66, _⟩ => ⟨S4096x4x50, .f32⟩
  | .hbm, ⟨67, _⟩ => ⟨S4096x4x50, .f32⟩
  | .hbm, ⟨68, _⟩ => ⟨S4096x4x64, .f32⟩
  | .local _ .vmem, ⟨0, _⟩ => ⟨S128x50x256, .f32⟩
  | .local _ .vmem, ⟨1, _⟩ => ⟨S128x50x256, .f32⟩
  | .local _ .vmem, ⟨2, _⟩ => ⟨S128x4x50, .f32⟩
  | .local _ .vmem, ⟨3, _⟩ => ⟨S128x4x50, .f32⟩
  | .local _ .vmem, ⟨4, _⟩ => ⟨S128x4x50, .f32⟩
  | .local _ .vmem, ⟨5, _⟩ => ⟨S128x4x50, .f32⟩
  | .local _ .vmem, ⟨6, _⟩ => ⟨S128x4x50, .f32⟩
  | .local _ .vmem, ⟨7, _⟩ => ⟨S128x4x50, .f32⟩
  | .local _ .vmem, ⟨8, _⟩ => ⟨S128x50x256, .f32⟩
  | .local _ .vmem, ⟨9, _⟩ => ⟨S128x50x256, .f32⟩
  | .local _ .vmem, ⟨10, _⟩ => ⟨S128x4x50, .f32⟩
  | .local _ .vmem, ⟨11, _⟩ => ⟨S128x4x50, .f32⟩
  | .local _ .vmem, ⟨12, _⟩ => ⟨S128x4x50, .f32⟩
  | .local _ .vmem, ⟨13, _⟩ => ⟨S128x4x50, .f32⟩
  | .local _ .vmem, ⟨14, _⟩ => ⟨S128x4x50, .f32⟩
  | .local _ .vmem, ⟨15, _⟩ => ⟨S128x4x50, .f32⟩
  | .local _ .vmem, ⟨16, _⟩ => ⟨S128x50x256, .f32⟩
  | .local _ .vmem, ⟨17, _⟩ => ⟨S128x50x256, .f32⟩
  | .local _ .vmem, ⟨18, _⟩ => ⟨S128x4x50, .f32⟩
  | .local _ .vmem, ⟨19, _⟩ => ⟨S128x4x50, .f32⟩
  | .local _ .vmem, ⟨20, _⟩ => ⟨S128x4x64, .f32⟩
  | .local _ .vmem, ⟨21, _⟩ => ⟨S128x4x64, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x50x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x50x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x4x50 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x50x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x4x50 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x4x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S4096x50x4x64_S4096x50x256 : S4096x50x4x64.ShapeCasts S4096x50x256
  bcast_S4096x50_S4096x1x50_0_2 : S4096x50.BroadcastsInDim S4096x1x50 (![0, 2] : Fin 2 → Fin S4096x1x50.rank)
  bcast_S4096x1x50_S4096x4x50_0_1_2 : S4096x1x50.BroadcastsInDim S4096x4x50 (![0, 1, 2] : Fin 3 → Fin S4096x4x50.rank)
  reducesTo_S4096x4x50_S4x50_d0 : S4096x4x50.ReducesTo [0] S4x50
  h_S_ : 0 < S_.numel
  bcast_S_S4x50 : S_.BroadcastsInDim S4x50 (![] : Fin 0 → Fin S4x50.rank)
  bcast_S4x50_S1x4x50_1_2 : S4x50.BroadcastsInDim S1x4x50 (![1, 2] : Fin 2 → Fin S1x4x50.rank)
  bcast_S1x4x50_S4096x4x50_0_1_2 : S1x4x50.BroadcastsInDim S4096x4x50 (![0, 1, 2] : Fin 3 → Fin S4096x4x50.rank)
  bcast_S_S4096x4x50 : S_.BroadcastsInDim S4096x4x50 (![] : Fin 0 → Fin S4096x4x50.rank)
  inb_S128x4x50_S128x4x50_0_0_0 : ∀ a, (![0, 0, 0] : Fin 3 → Nat) a + S128x4x50.size a ≤ S128x4x50.size a
  h_S128x4x50 : 0 < S128x4x50.numel
  inb_S128x50x256_S128x50x64_0_0_0 : ∀ a, (![0, 0, 0] : Fin 3 → Nat) a + S128x50x64.size a ≤ S128x50x256.size a
  h_S128x50x64 : 0 < S128x50x64.numel
  shapeCasts_S128x50x64_S128x50x64 : S128x50x64.ShapeCasts S128x50x64
  inb_S128x4x50_S128x1x50_0_0_0 : ∀ a, (![0, 0, 0] : Fin 3 → Nat) a + S128x1x50.size a ≤ S128x4x50.size a
  h_S128x1x50 : 0 < S128x1x50.numel
  shapeCasts_S128x1x50_S128x50 : S128x1x50.ShapeCasts S128x50
  shapeCasts_S128x50_S128x50x1 : S128x50.ShapeCasts S128x50x1
  broadcasts_S128x50x1_S128x50x64 : S128x50x1.Broadcasts S128x50x64
  reduces_S128x50x64_S128x64 : S128x50x64.Reduces [1] S128x64
  reduces_S128x64_S128 : S128x64.Reduces [1] S128
  shapeCasts_S128_S128x1 : S128.ShapeCasts S128x1
  broadcasts_S128x1_S128x64 : S128x1.Broadcasts S128x64
  shapeCasts_S128x64_S128x1x64 : S128x64.ShapeCasts S128x1x64
  broadcasts_S128x1x64_S128x50x64 : S128x1x64.Broadcasts S128x50x64
  reduces_S128x50x64_S128x50 : S128x50x64.Reduces [2] S128x50
  slices_S128x4x50_o0_0_0_S128x1x50 : S128x4x50.Slices ![0, 0, 0] S128x1x50
  shapeCasts_S128x50_S128x1x50 : S128x50.ShapeCasts S128x1x50
  inb_S128x50x256_S128x50x64_0_0_64 : ∀ a, (![0, 0, 64] : Fin 3 → Nat) a + S128x50x64.size a ≤ S128x50x256.size a
  inb_S128x4x50_S128x1x50_0_1_0 : ∀ a, (![0, 1, 0] : Fin 3 → Nat) a + S128x1x50.size a ≤ S128x4x50.size a
  slices_S128x4x50_o0_1_0_S128x1x50 : S128x4x50.Slices ![0, 1, 0] S128x1x50
  inb_S128x50x256_S128x50x64_0_0_128 : ∀ a, (![0, 0, 128] : Fin 3 → Nat) a + S128x50x64.size a ≤ S128x50x256.size a
  inb_S128x4x50_S128x1x50_0_2_0 : ∀ a, (![0, 2, 0] : Fin 3 → Nat) a + S128x1x50.size a ≤ S128x4x50.size a
  slices_S128x4x50_o0_2_0_S128x1x50 : S128x4x50.Slices ![0, 2, 0] S128x1x50
  inb_S128x50x256_S128x50x64_0_0_192 : ∀ a, (![0, 0, 192] : Fin 3 → Nat) a + S128x50x64.size a ≤ S128x50x256.size a
  inb_S128x4x50_S128x1x50_0_3_0 : ∀ a, (![0, 3, 0] : Fin 3 → Nat) a + S128x1x50.size a ≤ S128x4x50.size a
  slices_S128x4x50_o0_3_0_S128x1x50 : S128x4x50.Slices ![0, 3, 0] S128x1x50
  shapeCasts_S128x4x50_S128x4x50 : S128x4x50.ShapeCasts S128x4x50
  inb_S128x4x64_S128x1x64_0_0_0 : ∀ a, (![0, 0, 0] : Fin 3 → Nat) a + S128x1x64.size a ≤ S128x4x64.size a
  h_S128x1x64 : 0 < S128x1x64.numel
  shapeCasts_S128x1x64_S128x64 : S128x1x64.ShapeCasts S128x64
  inb_S128x4x64_S128x1x64_0_1_0 : ∀ a, (![0, 1, 0] : Fin 3 → Nat) a + S128x1x64.size a ≤ S128x4x64.size a
  inb_S128x4x64_S128x1x64_0_2_0 : ∀ a, (![0, 2, 0] : Fin 3 → Nat) a + S128x1x64.size a ≤ S128x4x64.size a
  inb_S128x4x64_S128x1x64_0_3_0 : ∀ a, (![0, 3, 0] : Fin 3 → Nat) a + S128x1x64.size a ≤ S128x4x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x50x256.size a ≤ S4096x50x256.size a
  hwx0_0 : ∀ i : grid0.Coords, EltTy.bits .f32 = 32 ∨ (Rect.block (s := S4096x50x256) S128x50x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4x50.size a ≤ S4096x4x50.size a
  hwx0_1 : ∀ i : grid0.Coords, EltTy.bits .f32 = 32 ∨ (Rect.block (s := S4096x4x50) S128x4x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4x50.size a ≤ S4096x4x50.size a
  hwx0_2 : ∀ i : grid0.Coords, EltTy.bits .f32 = 32 ∨ (Rect.block (s := S4096x4x50) S128x4x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4x50.size a ≤ S4096x4x50.size a
  hwx0_3 : ∀ i : grid0.Coords, EltTy.bits .f32 = 32 ∨ (Rect.block (s := S4096x4x50) S128x4x50.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x50x256.size a ≤ S4096x50x256.size a
  hwx1_0 : ∀ i : grid1.Coords, EltTy.bits .f32 = 32 ∨ (Rect.block (s := S4096x50x256) S128x50x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4x50.size a ≤ S4096x4x50.size a
  hwx1_1 : ∀ i : grid1.Coords, EltTy.bits .f32 = 32 ∨ (Rect.block (s := S4096x4x50) S128x4x50.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4x50.size a ≤ S4096x4x50.size a
  hwx1_2 : ∀ i : grid1.Coords, EltTy.bits .f32 = 32 ∨ (Rect.block (s := S4096x4x50) S128x4x50.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4x50.size a ≤ S4096x4x50.size a
  hwx1_3 : ∀ i : grid1.Coords, EltTy.bits .f32 = 32 ∨ (Rect.block (s := S4096x4x50) S128x4x50.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x50x256.size a ≤ S4096x50x256.size a
  hwx2_0 : ∀ i : grid2.Coords, EltTy.bits .f32 = 32 ∨ (Rect.block (s := S4096x50x256) S128x50x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x4x50.size a ≤ S4096x4x50.size a
  hwx2_1 : ∀ i : grid2.Coords, EltTy.bits .f32 = 32 ∨ (Rect.block (s := S4096x4x50) S128x4x50.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x4x64.size a ≤ S4096x4x64.size a
  hwx2_2 : ∀ i : grid2.Coords, EltTy.bits .f32 = 32 ∨ (Rect.block (s := S4096x4x64) S128x4x64.size (cc2_transform_2 i) (hinb2_2 i)).WholeWords (EltTy.packing .f32)

variable [Facts₀]

abbrev win0_0 : Pipeline.Window sig grid0 :=
  Pipeline.Window.ofSpec (Memref.whole main_v0) S128x50x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x4x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x4x50.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S128x50x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x4x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x4x50.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x4x50.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S128x50x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x4x50.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S128x4x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x50 : Shape := ⟨2, ![4096, 50]⟩
abbrev S4096x50x4x64 : Shape := ⟨4, ![4096, 50, 4, 64]⟩
abbrev S4096x4x50 : Shape := ⟨3, ![4096, 4, 50]⟩
abbrev S4096x4x50x64 : Shape := ⟨4, ![4096, 4, 50, 64]⟩
abbrev S4096x1x50 : Shape := ⟨3, ![4096, 1, 50]⟩
abbrev S_ : Shape := ⟨0, ![]⟩
abbrev S4x50 : Shape := ⟨2, ![4, 50]⟩
abbrev S1x4x50 : Shape := ⟨3, ![1, 4, 50]⟩
abbrev S4096x4x1x50 : Shape := ⟨4, ![4096, 4, 1, 50]⟩
abbrev S4096x4x1x64 : Shape := ⟨4, ![4096, 4, 1, 64]⟩
abbrev S4096x4x1 : Shape := ⟨3, ![4096, 4, 1]⟩
abbrev S4096x4x1x1 : Shape := ⟨4, ![4096, 4, 1, 1]⟩
abbrev S4096x4x64x1 : Shape := ⟨4, ![4096, 4, 64, 1]⟩
abbrev S4096x4x50x1 : Shape := ⟨4, ![4096, 4, 50, 1]⟩
abbrev S4096x4x64 : Shape := ⟨3, ![4096, 4, 64]⟩

abbrev nBuf : Space → Nat
  | .hbm => 126
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50x4x64, .f32⟩
  | .hbm, ⟨2, _⟩ => ⟨S4096x4x50, .f32⟩
  | .hbm, ⟨3, _⟩ => ⟨S4096x4x50x64, .f32⟩
  | .hbm, ⟨4, _⟩ => ⟨S4096x1x50, .i32⟩
  | .hbm, ⟨5, _⟩ => ⟨S4096x4x50, .i32⟩
  | .hbm, ⟨6, _⟩ => ⟨S_, .f32⟩
  | .hbm, ⟨7, _⟩ => ⟨S4x50, .f32⟩
  | .hbm, ⟨8, _⟩ => ⟨S_, .f32⟩
  | .hbm, ⟨9, _⟩ => ⟨S4x50, .f32⟩
  | .hbm, ⟨10, _⟩ => ⟨S4x50, .f32⟩
  | .hbm, ⟨11, _⟩ => ⟨S1x4x50, .f32⟩
  | .hbm, ⟨12, _⟩ => ⟨S4096x4x50, .f32⟩
  | .hbm, ⟨13, _⟩ => ⟨S4096x4x50, .f32⟩
  | .hbm, ⟨14, _⟩ => ⟨S4096x4x50, .f32⟩
  | .hbm, ⟨15, _⟩ => ⟨S_, .f32⟩
  | .hbm, ⟨16, _⟩ => ⟨S4x50, .f32⟩
  | .hbm, ⟨17, _⟩ => ⟨S1x4x50, .f32⟩
  | .hbm, ⟨18, _⟩ => ⟨S4096x4x50, .f32⟩
  | .hbm, ⟨19, _⟩ => ⟨S4096x4x50, .f32⟩
  | .hbm, ⟨20, _⟩ => ⟨S_, .i32⟩
  | .hbm, ⟨21, _⟩ => ⟨S4096x4x50, .i32⟩
  | .hbm, ⟨22, _⟩ => ⟨S4096x4x50, .i1⟩
  | .hbm, ⟨23, _⟩ => ⟨S_, .f32⟩
  | .hbm, ⟨24, _⟩ => ⟨S4096x4x50, .f32⟩
  | .hbm, ⟨25, _⟩ => ⟨S4096x4x50, .f32⟩
  | .hbm, ⟨26, _⟩ => ⟨S4096x4x1x50, .f32⟩
  | .hbm, ⟨27, _⟩ => ⟨S4096x4x1x64, .f32⟩
  | .hbm, ⟨28, _⟩ => ⟨S4096x4x1x64, .f32⟩
  | .hbm, ⟨29, _⟩ => ⟨S_, .f32⟩
  | .hbm, ⟨30, _⟩ => ⟨S4096x4x1, .f32⟩
  | .hbm, ⟨31, _⟩ => ⟨S4096x4x1x1, .f32⟩
  | .hbm, ⟨32, _⟩ => ⟨S_, .f32⟩
  | .hbm, ⟨33, _⟩ => ⟨S4096x4x1x1, .f32⟩
  | .hbm, ⟨34, _⟩ => ⟨S4096x4x1x1, .f32⟩
  | .hbm, ⟨35, _⟩ => ⟨S4096x4x1x1, .f32⟩
  | .hbm, ⟨36, _⟩ => ⟨S_, .f32⟩
  | .hbm, ⟨37, _⟩ => ⟨S4096x4x1x1, .f32⟩
  | .hbm, ⟨38, _⟩ => ⟨S4096x4x1x1, .f32⟩
  | .hbm, ⟨39, _⟩ => ⟨S4096x4x1x1, .f32⟩
  | .hbm, ⟨40, _⟩ => ⟨S4096x4x1x1, .f32⟩
  | .hbm, ⟨41, _⟩ => ⟨S4096x4x1x64, .f32⟩
  | .hbm, ⟨42, _⟩ => ⟨S4096x4x1x64, .f32⟩
  | .hbm, ⟨43, _⟩ => ⟨S4096x4x64x1, .f32⟩
  | .hbm, ⟨44, _⟩ => ⟨S4096x4x50x1, .f32⟩
  | .hbm, ⟨45, _⟩ => ⟨S4096x4x50, .f32⟩
  | .hbm, ⟨46, _⟩ => ⟨S4096x4x50, .f32⟩
  | .hbm, ⟨47, _⟩ => ⟨S_, .f32⟩
  | .hbm, ⟨48, _⟩ => ⟨S4x50, .f32⟩
  | .hbm, ⟨49, _⟩ => ⟨S_, .f32⟩
  | .hbm, ⟨50, _⟩ => ⟨S4x50, .f32⟩
  | .hbm, ⟨51, _⟩ => ⟨S4x50, .f32⟩
  | .hbm, ⟨52, _⟩ => ⟨S1x4x50, .f32⟩
  | .hbm, ⟨53, _⟩ => ⟨S4096x4x50, .f32⟩
  | .hbm, ⟨54, _⟩ => ⟨S4096x4x50, .f32⟩
  | .hbm, ⟨55, _⟩ => ⟨S4096x4x50, .f32⟩
  | .hbm, ⟨56, _⟩ => ⟨S_, .f32⟩
  | .hbm, ⟨57, _⟩ => ⟨S4x50, .f32⟩
  | .hbm, ⟨58, _⟩ => ⟨S1x4x50, .f32⟩
  | .hbm, ⟨59, _⟩ => ⟨S4096x4x50, .f32⟩
  | .hbm, ⟨60, _⟩ => ⟨S4096x4x50, .f32⟩
  | .hbm, ⟨61, _⟩ => ⟨S_, .i32⟩
  | .hbm, ⟨62, _⟩ => ⟨S4096x4x50, .i32⟩
  | .hbm, ⟨63, _⟩ => ⟨S4096x4x50, .i1⟩
  | .hbm, ⟨64, _⟩ => ⟨S_, .f32⟩
  | .hbm, ⟨65, _⟩ => ⟨S4096x4x50, .f32⟩
  | .hbm, ⟨66, _⟩ => ⟨S4096x4x50, .f32⟩
  | .hbm, ⟨67, _⟩ => ⟨S4096x4x1x50, .f32⟩
  | .hbm, ⟨68, _⟩ => ⟨S4096x4x1x64, .f32⟩
  | .hbm, ⟨69, _⟩ => ⟨S4096x4x1x64, .f32⟩
  | .hbm, ⟨70, _⟩ => ⟨S_, .f32⟩
  | .hbm, ⟨71, _⟩ => ⟨S4096x4x1, .f32⟩
  | .hbm, ⟨72, _⟩ => ⟨S4096x4x1x1, .f32⟩
  | .hbm, ⟨73, _⟩ => ⟨S_, .f32⟩
  | .hbm, ⟨74, _⟩ => ⟨S4096x4x1x1, .f32⟩
  | .hbm, ⟨75, _⟩ => ⟨S4096x4x1x1, .f32⟩
  | .hbm, ⟨76, _⟩ => ⟨S4096x4x1x1, .f32⟩
  | .hbm, ⟨77, _⟩ => ⟨S_, .f32⟩
  | .hbm, ⟨78, _⟩ => ⟨S4096x4x1x1, .f32⟩
  | .hbm, ⟨79, _⟩ => ⟨S4096x4x1x1, .f32⟩
  | .hbm, ⟨80, _⟩ => ⟨S4096x4x1x1, .f32⟩
  | .hbm, ⟨81, _⟩ => ⟨S4096x4x1x1, .f32⟩
  | .hbm, ⟨82, _⟩ => ⟨S4096x4x1x64, .f32⟩
  | .hbm, ⟨83, _⟩ => ⟨S4096x4x1x64, .f32⟩
  | .hbm, ⟨84, _⟩ => ⟨S4096x4x64x1, .f32⟩
  | .hbm, ⟨85, _⟩ => ⟨S4096x4x50x1, .f32⟩
  | .hbm, ⟨86, _⟩ => ⟨S4096x4x50, .f32⟩
  | .hbm, ⟨87, _⟩ => ⟨S4096x4x50, .f32⟩
  | .hbm, ⟨88, _⟩ => ⟨S_, .f32⟩
  | .hbm, ⟨89, _⟩ => ⟨S4x50, .f32⟩
  | .hbm, ⟨90, _⟩ => ⟨S_, .f32⟩
  | .hbm, ⟨91, _⟩ => ⟨S4x50, .f32⟩
  | .hbm, ⟨92, _⟩ => ⟨S4x50, .f32⟩
  | .hbm, ⟨93, _⟩ => ⟨S1x4x50, .f32⟩
  | .hbm, ⟨94, _⟩ => ⟨S4096x4x50, .f32⟩
  | .hbm, ⟨95, _⟩ => ⟨S4096x4x50, .f32⟩
  | .hbm, ⟨96, _⟩ => ⟨S4096x4x50, .f32⟩
  | .hbm, ⟨97, _⟩ => ⟨S_, .f32⟩
  | .hbm, ⟨98, _⟩ => ⟨S4x50, .f32⟩
  | .hbm, ⟨99, _⟩ => ⟨S1x4x50, .f32⟩
  | .hbm, ⟨100, _⟩ => ⟨S4096x4x50, .f32⟩
  | .hbm, ⟨101, _⟩ => ⟨S4096x4x50, .f32⟩
  | .hbm, ⟨102, _⟩ => ⟨S_, .i32⟩
  | .hbm, ⟨103, _⟩ => ⟨S4096x4x50, .i32⟩
  | .hbm, ⟨104, _⟩ => ⟨S4096x4x50, .i1⟩
  | .hbm, ⟨105, _⟩ => ⟨S_, .f32⟩
  | .hbm, ⟨106, _⟩ => ⟨S4096x4x50, .f32⟩
  | .hbm, ⟨107, _⟩ => ⟨S4096x4x50, .f32⟩
  | .hbm, ⟨108, _⟩ => ⟨S4096x4x1x50, .f32⟩
  | .hbm, ⟨109, _⟩ => ⟨S4096x4x1x64, .f32⟩
  | .hbm, ⟨110, _⟩ => ⟨S4096x4x1x64, .f32⟩
  | .hbm, ⟨111, _⟩ => ⟨S_, .f32⟩
  | .hbm, ⟨112, _⟩ => ⟨S4096x4x1, .f32⟩
  | .hbm, ⟨113, _⟩ => ⟨S4096x4x1x1, .f32⟩
  | .hbm, ⟨114, _⟩ => ⟨S_, .f32⟩
  | .hbm, ⟨115, _⟩ => ⟨S4096x4x1x1, .f32⟩
  | .hbm, ⟨116, _⟩ => ⟨S4096x4x1x1, .f32⟩
  | .hbm, ⟨117, _⟩ => ⟨S4096x4x1x1, .f32⟩
  | .hbm, ⟨118, _⟩ => ⟨S_, .f32⟩
  | .hbm, ⟨119, _⟩ => ⟨S4096x4x1x1, .f32⟩
  | .hbm, ⟨120, _⟩ => ⟨S4096x4x1x1, .f32⟩
  | .hbm, ⟨121, _⟩ => ⟨S4096x4x1x1, .f32⟩
  | .hbm, ⟨122, _⟩ => ⟨S4096x4x1x1, .f32⟩
  | .hbm, ⟨123, _⟩ => ⟨S4096x4x1x64, .f32⟩
  | .hbm, ⟨124, _⟩ => ⟨S4096x4x1x64, .f32⟩
  | .hbm, ⟨125, _⟩ => ⟨S4096x4x64, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_16 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_17 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_19 : Ref sig .tc := ⟨.hbm, 111, rfl⟩
abbrev main_v87 : Ref sig .tc := ⟨.hbm, 112, rfl⟩
abbrev main_v88 : Ref sig .tc := ⟨.hbm, 113, rfl⟩
abbrev main_cst_20 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]

class Facts₀ : Prop where
  transposes_S4096x50x4x64_S4096x4x50x64_0_2_1_3 : S4096x50x4x64.Transposes [0, 2, 1, 3] S4096x4x50x64
  bcast_S4096x50_S4096x1x50_0_2 : S4096x50.BroadcastsInDim S4096x1x50 (![0, 2] : Fin 2 → Fin S4096x1x50.rank)
  bcast_S4096x1x50_S4096x4x50_0_1_2 : S4096x1x50.BroadcastsInDim S4096x4x50 (![0, 1, 2] : Fin 3 → Fin S4096x4x50.rank)
  reducesTo_S4096x4x50_S4x50_d0 : S4096x4x50.ReducesTo [0] S4x50
  h_S_ : 0 < S_.numel
  bcast_S_S4x50 : S_.BroadcastsInDim S4x50 (![] : Fin 0 → Fin S4x50.rank)
  bcast_S4x50_S1x4x50_1_2 : S4x50.BroadcastsInDim S1x4x50 (![1, 2] : Fin 2 → Fin S1x4x50.rank)
  bcast_S1x4x50_S4096x4x50_0_1_2 : S1x4x50.BroadcastsInDim S4096x4x50 (![0, 1, 2] : Fin 3 → Fin S4096x4x50.rank)
  bcast_S_S4096x4x50 : S_.BroadcastsInDim S4096x4x50 (![] : Fin 0 → Fin S4096x4x50.rank)
  bcast_S4096x4x50_S4096x4x1x50_0_1_3 : S4096x4x50.BroadcastsInDim S4096x4x1x50 (![0, 1, 3] : Fin 3 → Fin S4096x4x1x50.rank)
  reducesTo_S4096x4x1x64_S4096x4x1_d3 : S4096x4x1x64.ReducesTo [3] S4096x4x1
  bcast_S4096x4x1_S4096x4x1x1_0_1_2 : S4096x4x1.BroadcastsInDim S4096x4x1x1 (![0, 1, 2] : Fin 3 → Fin S4096x4x1x1.rank)
  bcast_S_S4096x4x1x1 : S_.BroadcastsInDim S4096x4x1x1 (![] : Fin 0 → Fin S4096x4x1x1.rank)
  bcast_S4096x4x1x1_S4096x4x1x64_0_1_2_3 : S4096x4x1x1.BroadcastsInDim S4096x4x1x64 (![0, 1, 2, 3] : Fin 4 → Fin S4096x4x1x64.rank)
  transposes_S4096x4x1x64_S4096x4x64x1_0_1_3_2 : S4096x4x1x64.Transposes [0, 1, 3, 2] S4096x4x64x1
  shapeCasts_S4096x4x50x1_S4096x4x50 : S4096x4x50x1.ShapeCasts S4096x4x50
  shapeCasts_S4096x4x1x64_S4096x4x64 : S4096x4x1x64.ShapeCasts S4096x4x64
  dot_S4096x4x1x50_S4096x4x50x64_S4096x4x1x64_3_2_2_3_01_01_wf : DotDims.WF S4096x4x1x50 S4096x4x50x64 S4096x4x1x64 [3] [2] [2] [3] [0, 1] [0, 1]
  dot_S4096x4x50x64_S4096x4x64x1_S4096x4x50x1_3_2_2_3_01_01_wf : DotDims.WF S4096x4x50x64 S4096x4x64x1 S4096x4x50x1 [3] [2] [2] [3] [0, 1] [0, 1]

variable [Facts₀]

def dot_S4096x4x1x50_S4096x4x50x64_S4096x4x1x64_3_2_2_3_01_01 : DotDims S4096x4x1x50 S4096x4x50x64 S4096x4x1x64 where
  lhsContracting := [3]
  rhsContracting := [2]
  lhsNonContracting := [2]
  rhsNonContracting := [3]
  lhsBatch := [0, 1]
  rhsBatch := [0, 1]
  wf := dot_S4096x4x1x50_S4096x4x50x64_S4096x4x1x64_3_2_2_3_01_01_wf
def dot_S4096x4x50x64_S4096x4x64x1_S4096x4x50x1_3_2_2_3_01_01 : DotDims S4096x4x50x64 S4096x4x64x1 S4096x4x50x1 where
  lhsContracting := [3]
  rhsContracting := [2]
  lhsNonContracting := [2]
  rhsNonContracting := [3]
  lhsBatch := [0, 1]
  rhsBatch := [0, 1]
  wf := dot_S4096x4x50x64_S4096x4x64x1_S4096x4x50x1_3_2_2_3_01_01_wf

class Facts : Prop extends Facts₀ where

variable [Facts]
-- ==== Proof.KernelRun.lean ====
/-
  The idealized kernel's run with its RESULT named: every weakly fair execution of @main terminates with the result
  buffer at the contents the last segment boundary gives it and the three arguments unchanged.

  @main is nine segments: three stretches of host operations (a softmax of the logits over the batch, then the
  mask), each followed by a one-operation stretch (the select) and a routing region. The contents of every unscoped
  buffer at the last boundary are `W9 m ρ c`; the run ends with every such buffer at those contents, and the result
  buffer is one of them. The frame keeps only the three arguments of that reading; here the result is kept too.
-/
import proofs.«110791_j42090679501341_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the nine segments, read at the result buffer and at the three arguments: the launch over the
    segments, the last thread state read against the final state, the result buffer at the last boundary's
    contents and each argument read back through the boundaries to its launch contents. -/
theorem run_result : θ_run defs (onTc (τ := τ) (main (F := F))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v50 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.RunValue

end
-- ==== Proof.Spec.lean ====
/-
  Dynamic routing between capsules, three rounds, as plain mathematics on the extended reals.

  For one batch row the data are the routing weights `w k s` (capsule `k`, position `s`) and the predictions
  `x s k h` (position `s`, capsule `k`, hidden coordinate `h`). One round computes
    v k h     = Σ_s w k s · x s k h                       (the weighted vote of capsule k)
    c k       = Σ_h v k h · v k h                         (its squared norm)
    ic k h    = (c / (1 + c) / √(c + ε)) · v k h           (the squashed capsule)
    delta k s = Σ_h x s k h · ic k h                      (the agreement of position s with capsule k)
  and the routing logits move by `delta`. The weights of a round are a fixed function `W` of that round's logits (a
  softmax over the batch followed by a mask), which this file never opens: it is a parameter. After two such rounds
  the third round's squashed capsules are the result.

  Every sum is a finite sum in the commutative monoid of extended reals, so neither the order of summation nor a
  zero starting value matters; no law that fails at an infinity is used anywhere.
-/
import Idealize.ShloMosaic.PureOps.Ideal
import Idealize.ShloMosaic.Lib.ValueIdx

noncomputable section

namespace Cert.Routing

open Idealize.ShloMosaic Idealize.ShloMosaic.ValueIdx

/-- The squash factor `c / (1 + c) / √(c + ε)`, with `1` and `ε` the two f32 words both programs carry. -/
def squash (c : EReal) : EReal :=
  Ideal.div (Ideal.div c (Ideal.ofBits .f32 0x3F800000#32 + c)) (Ideal.sqrt (c + Ideal.ofBits .f32 0x3089705F#32))

/-- One row's routing weights and predictions. -/
abbrev RowW := Fin 4 → Fin 50 → EReal
abbrev RowX := Fin 50 → Fin 4 → Fin 64 → EReal

/-- The weighted vote of capsule `k`: `Σ_s w k s · x s k h`. -/
def vote (w : RowW) (x : RowX) (k : Fin 4) (h : Fin 64) : EReal := ∑ s : Fin 50, w k s * x s k h

/-- Its squared norm `Σ_h v k h · v k h`. -/
def normSq (w : RowW) (x : RowX) (k : Fin 4) : EReal := ∑ h : Fin 64, vote w x k h * vote w x k h

/-- The squashed capsule `squash (normSq) · vote`. -/
def capsuleRow (w : RowW) (x : RowX) (k : Fin 4) (h : Fin 64) : EReal := squash (normSq w x k) * vote w x k h

/-- The agreement `Σ_h x s k h · ic k h` of position `s` with capsule `k`. -/
def agreeRow (w : RowW) (x : RowX) (k : Fin 4) (s : Fin 50) : EReal := ∑ h : Fin 64, x s k h * capsuleRow w x k h

/-- The arrays: logits and weights `[4096, 4, 50]`, predictions `[4096, 50, 4, 64]`, capsules `[4096, 4, 64]`. -/
abbrev Logits := (⟨3, ![4096, 4, 50]⟩ : Shape).Idx → EReal
abbrev Preds := (⟨4, ![4096, 50, 4, 64]⟩ : Shape).Idx → EReal
abbrev Caps := (⟨3, ![4096, 4, 64]⟩ : Shape).Idx → EReal

/-- Row `b` of a `[4096, 4, 50]` array and of the predictions. -/
def rowW (w : Logits) (b : Fin 4096) : RowW := fun k s => w (ix3 b k s)
def rowX (x : Preds) (b : Fin 4096) : RowX := fun s k h => x (ix4 b s k h)

/-- One round's new logits: the old ones plus the agreement, row by row. -/
def step (x : Preds) (w cw : Logits) : Logits :=
  fun i => cw i + agreeRow (rowW w (i 0)) (rowX x (i 0)) (i 1) (i 2)

/-- One round's squashed capsules, row by row. -/
def capsules (x : Preds) (w : Logits) : Caps :=
  fun i => capsuleRow (rowW w (i 0)) (rowX x (i 0)) (i 1) (i 2)

theorem step_ix3 (x : Preds) (w cw : Logits) (b : Fin 4096) (k : Fin 4) (s : Fin 50) :
    step x w cw (ix3 b k s) = cw (ix3 b k s) + agreeRow (rowW w b) (rowX x b) k s := rfl

theorem capsules_ix3 (x : Preds) (w : Logits) (b : Fin 4096) (k : Fin 4) (h : Fin 64) :
    capsules x w (ix3 b k h) = capsuleRow (rowW w b) (rowX x b) k h := rfl

/-- A round with the weights `W` of its own logits. -/
def round (W : Logits → Logits) (x : Preds) (cw : Logits) : Logits := step x (W cw) cw

/-- Three rounds: two that move the logits, and the third round's capsules. -/
def routed (W : Logits → Logits) (x : Preds) (cw : Logits) : Caps :=
  capsules x (W (round W x (round W x cw)))

end Cert.Routing

end
-- ==== Proof.LibRank3UnitAxes.lean ====
/-
  Rank-3 arrays with a unit axis in the middle or at the end, read at an index given by coordinates; any extents.

  * a shape cast that drops or adds a TRAILING unit axis ([a,b,1] ↔ [a,b]) or a MIDDLE unit axis ([a,1,n] ↔ [a,n])
    keeps the row-major position, so it reads the operand at the same coordinates with 0 on the unit axis;
  * a broadcast of [a,b,1] or of [a,1,n] to [a,b,n] repeats the operand along the unit axis;
  * a load through a unit-stride rectangle reads the contents at offset + coordinate on every axis;
  * at the ideal values, a minimum reduction over the LAST axis of an [a,b,n] array — a vector unit's
    `multi_reduction <minimumf>` or the host's `reduce` with a minimum body — is, at (i, j), the fold of `min` from
    the initial value over the n entries (i, j, ·).
-/
import Idealize.ShloMosaic.Lib.Pipeline.Value
import Idealize.ShloMosaic.Lib.ValueIdx
import Idealize.ShloMosaic.PureOps.Ideal.Laws

noncomputable section

namespace Cert.Rank3UnitAxes

open Idealize.ShloMosaic Idealize.ShloMosaic.ValueIdx

variable {α : Type}

/-- [a,b,1] cast to [a,b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- [a,b] cast to [a,b,1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,1,n] cast to [a,n] reads, at (i, l), the operand at (i, 0, l). -/
theorem shapeCast_a1n_an_apply {a n : ℕ} (x : (⟨3, ![a, 1, n]⟩ : Shape).Idx → α)
    (h : (⟨3, ![a, 1, n]⟩ : Shape).ShapeCasts ⟨2, ![a, n]⟩) (i : Fin a) (l : Fin n) :
    shapeCast ⟨2, ![a, n]⟩ x h (ix2 i l) = x (ix3 i (0 : Fin 1) l) :=
  shapeCast_apply x h _ _ (by
    rw [Shape.rowMajor_val_three, Shape.rowMajor_val_two]
    show (i.val * 1 + 0) * n + l.val = i.val * n + l.val
    rw [Nat.mul_one, Nat.add_zero])

/-- [a,n] cast to [a,1,n] reads, at (i, u, l), the operand at (i, l). -/
theorem shapeCast_an_a1n_apply {a n : ℕ} (x : (⟨2, ![a, n]⟩ : Shape).Idx → α)
    (h : (⟨2, ![a, n]⟩ : Shape).ShapeCasts ⟨3, ![a, 1, n]⟩) (i : Fin a) (u : Fin 1) (l : Fin n) :
    shapeCast ⟨3, ![a, 1, n]⟩ x h (ix3 i u l) = x (ix2 i l) :=
  shapeCast_apply x h _ _ (by
    have hu : u.val = 0 := by omega
    rw [Shape.rowMajor_val_three, Shape.rowMajor_val_two]
    show i.val * n + l.val = (i.val * 1 + u.val) * n + l.val
    rw [hu, Nat.mul_one, Nat.add_zero])

/-- [a,b,1] broadcast to [a,b,n] reads, at (i, j, l), the operand at (i, j, 0). -/
theorem broadcastTo_ab1_abn_apply {a b n : ℕ} (x : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- [a,1,n] broadcast to [a,b,n] reads, at (i, j, l), the operand at (i, 0, l). -/
theorem broadcastTo_a1n_abn_apply {a b n : ℕ} (x : (⟨3, ![a, 1, n]⟩ : Shape).Idx → α)
    (h : (⟨3, ![a, 1, n]⟩ : Shape).Broadcasts ⟨3, ![a, b, n]⟩) (i : Fin a) (j : Fin b) (l : Fin n) :
    broadcastTo ⟨3, ![a, b, n]⟩ x h (ix3 i j l) = x (ix3 i (0 : Fin 1) l) := by
  refine broadcastTo_apply x h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if n = 1 then 0 else l.val
    split
    · have := l.isLt; omega
    · rfl

/-- A load through a unit-stride rectangle reads the contents at offset + coordinate on every axis. -/
theorem ld_unit_apply {Val : EltTy → Type} {e : EltTy} {S : Shape} (X : S.Idx → Val e) (off : Fin S.rank → Nat) (size : Fin S.rank → Nat)
    (inb : ∀ ax, off ax + size ax ≤ S.size ax) (y : (Rect.unit (s := S) off size inb).shape.Idx) (k : S.Idx)
    (hk : ∀ ax, (k ax).val = off ax + (y ax).val) :
    View.ld X (Rect.unit (s := S) off size inb) y = X k := by
  show X ((Rect.unit (s := S) off size inb).emb y) = X k
  refine congrArg X (funext fun ax => Fin.ext ?_)
  rw [Rect.emb_apply, hk ax]
  show off ax + 1 * (y ax).val = _
  rw [Nat.one_mul]

/-- The index over (i, j) with l inserted on the last axis is (i, j, l). -/
theorem lift_last {a b n : ℕ} (h : (⟨3, ![a, b, n]⟩ : Shape).Reduces [2] ⟨2, ![a, b]⟩) (i : Fin a) (j : Fin b) (l : Fin n) :
    h.lift (ix2 i j) l = ix3 i j l :=
  funext fun ax => Fin.ext (by match ax with | ⟨0, _⟩ => rfl | ⟨1, _⟩ => rfl | ⟨2, _⟩ => rfl)

/-- At the ideal values a `multi_reduction <minimumf>` over the last axis of an [a,b,n] array is, at (i, j), the fold of
    `min` from the accumulator's value over the entries (i, j, ·). -/
theorem multiReduction_minimumf_last {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ)
    (hacc : acc = FKind.minimumf.neutral φ hφ) (i : Fin a) (j : Fin b) :
    multiReduction .minimumf [2] ⟨2, ![a, b]⟩ src acc h hφ hacc (ix2 i j)
      = (Finset.univ : Finset (Fin n)).fold min (Ideal.ofBits φ acc) (fun l => src (ix3 i j l)) := by
  rw [multiReduction_minimumf_eq_fold]
  refine (h.fold_filter_drop_single _ _ src (ix2 i j)).trans ?_
  exact congrArg (fun f : Fin n → EReal => (Finset.univ : Finset (Fin n)).fold min (Ideal.ofBits φ acc) f)
    (funext fun l => congrArg src (lift_last h i j l))

/-- The host's `reduce` with a minimum body over the last axis of an [a,b,n] array, at the ideal values, likewise: the
    fold of `min` from the initial value over the entries (i, j, ·). -/
theorem hostReduce_minimumf_last {a b n : ℕ} {φ : FTy} {u : Shape} (x : FVec Ideal ⟨3, ![a, b, n]⟩ φ)
    (init : u.Idx → Ideal φ) (h' : (⟨3, ![a, b, n]⟩ : Shape).ReducesTo [2] ⟨2, ![a, b]⟩)
    (h : (⟨3, ![a, b, n]⟩ : Shape).Reduces [2] ⟨2, ![a, b]⟩) (hu : 0 < u.numel) (i : Fin a) (j : Fin b) :
    Host.reduce (FloatOps.minimumf (F := Ideal) (φ := φ)) x init h' hu (ix2 i j)
      = (Finset.univ : Finset (Fin n)).fold min (init (Shape.Idx.first hu)) (fun l => x (ix3 i j l)) := by
  refine (Host.reduce_eq_fold_single _ x init h' h hu (ix2 i j)).trans ?_
  exact congrArg (fun f : Fin n → EReal => (Finset.univ : Finset (Fin n)).fold min (init (Shape.Idx.first hu)) f)
    (funext fun l => congrArg x (lift_last h i j l))

end Cert.Rank3UnitAxes

end
-- ==== Proof.LibDenseRows.lean ====
import Idealize.ShloMosaic.PureOps.Ideal
import Idealize.ShloMosaic.PureOps.Ideal.Laws
import Idealize.ShloMosaic.Lib.ValueIdx
import Idealize.ShloMosaic.Lib.Pipeline.Value

/-!
# Rows of a dense layer, read entry by entry

General facts, at any extents, that a dense layer followed by a row-wise softmax meets:

* `col_cast_apply`: a length-`a` vector re-laid as a column `[a, 1]` has the vector's entry `r` at `(r, 0)`;
* `col_bcast_apply`: a column `[a, 1]` repeated along `b` columns has the column's entry `(r, 0)` at every `(r, c)`;
* `matmul_rows_apply`: the product of an `[a, k]` matrix and a `[k, b]` matrix accumulated into zero is, at `(r, c)`,
  the sum over `u < k` of `L (r, u) · R (u, c)` on the extended reals — for ANY dimension-numbers record whose operand
  indices have those coordinates (for a literal record each of the four facts is `fun _ _ => rfl`);
* `row_max_apply`, `row_sum_apply`: a maximum (from its starting value) and a sum along the columns of an `[a, b]`
  array, at row `r`, as a fold and a sum over the column index.
-/

noncomputable section

open scoped BigOperators

namespace Cert.DenseRows

open Idealize.ShloMosaic Idealize.ShloMosaic.ValueIdx

variable {α : Type}

/-- A vector re-laid as a column: entry `(r, 0)` of the column is entry `r` of the vector. -/
theorem col_cast_apply {a : ℕ} (v : (⟨1, ![a]⟩ : Shape).Idx → α) (h : (⟨1, ![a]⟩ : Shape).ShapeCasts ⟨2, ![a, 1]⟩)
    (r : Fin a) : shapeCast ⟨2, ![a, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column repeated along the columns: entry `(r, c)` is the column's entry `(r, 0)`. -/
theorem col_bcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A matrix product accumulated into zero, at `(r, c)`: the sum over the shared extent of the products of row `r` of the
    left factor and column `c` of the right one. -/
theorem matmul_rows_apply {a k b : ℕ} {φ₁ φ₂ : FTy}
    (D : DotDims ⟨2, ![a, k]⟩ ⟨2, ![k, b]⟩ ⟨2, ![a, b]⟩) (hr : D.contr.rank = 1) (hs : D.contr.size ⟨0, by omega⟩ = k)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (L : FVec Ideal ⟨2, ![a, k]⟩ φ₁) (R : FVec Ideal ⟨2, ![k, b]⟩ φ₂) (r : Fin a) (c : Fin b) :
    FloatOps.matmul D prec L R (constant ⟨2, ![a, b]⟩ .f32 0x00000000#32) (ix2 r c)
      = ∑ u : Fin k, L (ix2 r u) * R (ix2 u c) := by
  rw [Ideal.matmul_constant_zero_apply, ← Equiv.sum_comp (contrEquiv1 D k hr hs).symm]
  refine Finset.sum_congr rfl fun u _ => ?_
  have hL : D.lhsIdx (ix2 r c) ((contrEquiv1 D k hr hs).symm u) = ix2 r u := by
    funext ax
    match ax with
    | ⟨0, _⟩ => exact Fin.ext (hl0 _ _)
    | ⟨1, _⟩ => exact Fin.ext ((hl1 _ _).trans (contrEquiv1_symm_val D k hr hs u))
  have hR : D.rhsIdx (ix2 r c) ((contrEquiv1 D k hr hs).symm u) = ix2 u c := by
    funext ax
    match ax with
    | ⟨0, _⟩ => exact Fin.ext ((hr0 _ _).trans (contrEquiv1_symm_val D k hr hs u))
    | ⟨1, _⟩ => exact Fin.ext (hr1 _ _)
  rw [hL, hR]

/-- The maximum along the columns of an `[a, b]` array at row `r`: the fold of `max` from the starting value over the
    column index. -/
theorem row_max_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (FloatOps.ofBits φ acc) (fun c => src (ix2 r c)) := by
  refine (Ideal.multiReduction_maximumf_single src acc h hφ hacc (ix1 r)).trans ?_
  refine congrArg (fun g => (Finset.univ : Finset (Fin b)).fold max (FloatOps.ofBits φ acc) g) (funext fun c => ?_)
  refine congrArg src (funext fun ax => ?_)
  match ax with
  | ⟨0, _⟩ => rfl
  | ⟨1, _⟩ => rfl

/-- The sum along the columns of an `[a, b]` array at row `r`: the sum over the column index. -/
theorem row_sum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => ?_)
  match ax with
  | ⟨0, _⟩ => rfl
  | ⟨1, _⟩ => rfl

end Cert.DenseRows

end
-- ==== Proof.LibAxisSums.lean ====
import Idealize.ShloMosaic.PureOps.Ideal.Laws
import Idealize.ShloMosaic.Lib.ValueIdx

/-!
# A float sum along one axis of a rank-3 array, read at an index

At the ideal values a vector unit's `multi_reduction <add>` from the zero (neutral) accumulator over ONE axis of an
`[a, b, n]` array is, at each index of the result, the plain finite sum of the source over that axis's coordinate;
any extents:

* `sum_mid_apply`: over the MIDDLE axis, into `[a, n]`: at `(i, l)` the sum over `j < b` of the source at `(i, j, l)`;
* `sum_last_apply`: over the LAST axis, into `[a, b]`: at `(i, j)` the sum over `l < n` of the source at `(i, j, l)`;
* `lift_mid`, `lift_last`: the reduced index with the coordinate put back on that axis is the rank-3 index.

A contraction written as "broadcast, multiply, sum along an axis" (a weighted sum over positions, a dot product along
the hidden axis) reads as a `Fin`-indexed sum of products through these.
-/

noncomputable section

open scoped BigOperators

namespace Cert.AxisSums

open Idealize.ShloMosaic Idealize.ShloMosaic.ValueIdx

/-- The index `(i, l)` with `j` inserted on the middle axis is `(i, j, l)`. -/
theorem lift_mid {a b n : ℕ} (hr : (⟨3, ![a, b, n]⟩ : Shape).Reduces [1] ⟨2, ![a, n]⟩) (i : Fin a) (l : Fin n) (j : Fin b) :
    hr.lift (ix2 i l) j = ix3 i j l :=
  funext fun ax => Fin.ext (by match ax with | ⟨0, _⟩ => rfl | ⟨1, _⟩ => rfl | ⟨2, _⟩ => rfl)

/-- The index `(i, j)` with `l` inserted on the last axis is `(i, j, l)`. -/
theorem lift_last {a b n : ℕ} (hr : (⟨3, ![a, b, n]⟩ : Shape).Reduces [2] ⟨2, ![a, b]⟩) (i : Fin a) (j : Fin b) (l : Fin n) :
    hr.lift (ix2 i j) l = ix3 i j l :=
  funext fun ax => Fin.ext (by match ax with | ⟨0, _⟩ => rfl | ⟨1, _⟩ => rfl | ⟨2, _⟩ => rfl)

/-- A sum over the middle axis of an `[a, b, n]` array at `(i, l)`. -/
theorem sum_mid_apply {a b n : ℕ} {φ : FTy} (src : FVec Ideal ⟨3, ![a, b, n]⟩ φ) (acc : BitVec φ.bits)
    (hr : (⟨3, ![a, b, n]⟩ : Shape).Reduces [1] ⟨2, ![a, n]⟩) (hφ : FKind.Formats φ) (hacc : acc = FKind.add.neutral φ hφ)
    (i : Fin a) (l : Fin n) :
    multiReduction .add [1] ⟨2, ![a, n]⟩ src acc hr hφ hacc (ix2 i l) = ∑ j : Fin b, src (ix3 i j l) := by
  refine (Ideal.multiReduction_add_single src acc hr hφ hacc (ix2 i l)).trans ?_
  exact Finset.sum_congr rfl fun j _ => congrArg src (lift_mid hr i l j)

/-- A sum over the last axis of an `[a, b, n]` array at `(i, j)`. -/
theorem sum_last_apply {a b n : ℕ} {φ : FTy} (src : FVec Ideal ⟨3, ![a, b, n]⟩ φ) (acc : BitVec φ.bits)
    (hr : (⟨3, ![a, b, n]⟩ : Shape).Reduces [2] ⟨2, ![a, b]⟩) (hφ : FKind.Formats φ) (hacc : acc = FKind.add.neutral φ hφ)
    (i : Fin a) (j : Fin b) :
    multiReduction .add [2] ⟨2, ![a, b]⟩ src acc hr hφ hacc (ix2 i j) = ∑ l : Fin n, src (ix3 i j l) := by
  refine (Ideal.multiReduction_add_single src acc hr hφ hacc (ix2 i j)).trans ?_
  exact Finset.sum_congr rfl fun l _ => congrArg src (lift_last hr i j l)

end Cert.AxisSums

end
-- ==== Proof.Stages.lean ====
/-
  The stages of one capsule slice of the routing body, each as ONE function of vectors over a block of 128 batch
  rows, and each read at an index at the ideal values.

  A slice works on the predictions of one capsule, `it : [128, 50, 64]` (row, position, hidden coordinate), and that
  capsule's routing weights `w2 : [128, 50]` (row, position):
    vote      v (r, h) = Σ_s w2 (r, s) · it (r, s, h)             a sum over the MIDDLE axis of w2 ⊗ it
    norm      c (r)    = Σ_h v (r, h) · v (r, h)                  a row sum, delivered as a column [128, 1]
    factor    f (r)    = c / (1 + c) / √(c + ε)                   entry by entry on the column
    capsule   ic (r,h) = f (r) · v (r, h)                         the column repeated along the row
    agreement d (r, s) = Σ_h it (r, s, h) · ic (r, h)             a sum over the LAST axis of it ⊗ ic
  The sums start from the zero word, which is the neutral element: they are plain finite sums.
-/
import proofs.«110791_j42090679501341_2_alg».proof.Proof.Gen.KernelIdeal
import proofs.«110791_j42090679501341_2_alg».proof.Proof.Spec
import proofs.«110791_j42090679501341_2_alg».proof.Proof.LibRank3UnitAxes
import proofs.«110791_j42090679501341_2_alg».proof.Proof.LibDenseRows
import proofs.«110791_j42090679501341_2_alg».proof.Proof.LibAxisSums
import Idealize.ShloMosaic.Lib.Pipeline.Value
import Idealize.ShloMosaic.Lib.ValueIdx
import Idealize.ShloMosaic.PureOps.Ideal.Laws

noncomputable section

namespace Cert.KernelIdeal.Stages

open Cert.KernelIdeal Cert.KernelIdeal.Gen Idealize.ShloMosaic Idealize.ShloMosaic.TcCoe Idealize.ShloMosaic.ValueIdx
open Cert.Routing

section Defs

variable {F : FTy → Type} [FloatOps F]

/-- The vote: the weights repeated along the hidden axis, times the predictions, summed over the positions. -/
def voteV (it : FVec F S128x50x64 .f32) (w2 : FVec F S128x50 .f32) : FVec F S128x64 .f32 :=
  multiReduction .add [1] S128x64
    (mulf (broadcastTo S128x50x64 (shapeCast S128x50x1 w2 shapeCasts_S128x50_S128x50x1) broadcasts_S128x50x1_S128x50x64) it)
    0x00000000#32 reduces_S128x50x64_S128x64 (.inl rfl) rfl

/-- The squared norm of each row of a `[128, 64]` array, as a column. -/
def normV (v : FVec F S128x64 .f32) : FVec F S128x1 .f32 :=
  shapeCast S128x1 (multiReduction .add [1] S128 (mulf v v) 0x00000000#32 reduces_S128x64_S128 (.inl rfl) rfl) shapeCasts_S128_S128x1

/-- `c / (1 + c)` on a column. -/
def ratioV (c : FVec F S128x1 .f32) : FVec F S128x1 .f32 :=
  divf c (addf (broadcast S128x1 (Scalar.ofBits .f32 0x3F800000#32)) c)

/-- `c / (1 + c) / √(c + ε)` on a column. -/
def factorV (c : FVec F S128x1 .f32) : FVec F S128x1 .f32 :=
  divf (ratioV c) (sqrt (addf c (broadcast S128x1 (Scalar.ofBits .f32 0x3089705F#32))))

/-- The squashed capsule: the factor of each row's squared norm, repeated along the row, times the vote. -/
def capV (it : FVec F S128x50x64 .f32) (w2 : FVec F S128x50 .f32) : FVec F S128x64 .f32 :=
  mulf (broadcastTo S128x64 (factorV (normV (voteV it w2))) broadcasts_S128x1_S128x64) (voteV it w2)

/-- The agreement of a capsule `ic` with every position: the predictions times the capsule repeated along the
    positions, summed over the hidden axis. -/
def agreeOf (it : FVec F S128x50x64 .f32) (ic : FVec F S128x64 .f32) : FVec F S128x50 .f32 :=
  multiReduction .add [2] S128x50
    (mulf it (broadcastTo S128x50x64 (shapeCast S128x1x64 ic shapeCasts_S128x64_S128x1x64) broadcasts_S128x1x64_S128x50x64))
    0x00000000#32 reduces_S128x50x64_S128x50 (.inl rfl) rfl

/-- The agreement of the slice's own squashed capsule. -/
def agreeV (it : FVec F S128x50x64 .f32) (w2 : FVec F S128x50 .f32) : FVec F S128x50 .f32 := agreeOf it (capV it w2)

end Defs

/-! ## Read at an index, at the ideal values -/

theorem voteV_apply (it : FVec Ideal S128x50x64 .f32) (w2 : FVec Ideal S128x50 .f32) (r : Fin 128) (h : Fin 64) :
    voteV it w2 (ix2 r h) = ∑ s : Fin 50, w2 (ix2 r s) * it (ix3 r s h) := by
  unfold voteV
  refine (Cert.AxisSums.sum_mid_apply _ _ reduces_S128x50x64_S128x64 _ _ r h).trans ?_
  refine Finset.sum_congr rfl fun s _ => ?_
  refine (mulf_apply _ _ _).trans ?_
  rw [Cert.Rank3UnitAxes.broadcastTo_ab1_abn_apply, Cert.Rank3UnitAxes.shapeCast_ab_ab1_apply]

theorem normV_apply (v : FVec Ideal S128x64 .f32) (r : Fin 128) :
    normV v (ix2 r (0 : Fin 1)) = ∑ h : Fin 64, v (ix2 r h) * v (ix2 r h) := by
  unfold normV
  rw [Cert.DenseRows.col_cast_apply]
  exact Cert.DenseRows.row_sum_apply _ _ reduces_S128x64_S128 _ _ r

theorem factorV_apply (c : FVec Ideal S128x1 .f32) (j : S128x1.Idx) : factorV c j = squash (c j) := rfl

theorem capV_apply (it : FVec Ideal S128x50x64 .f32) (w2 : FVec Ideal S128x50 .f32) (r : Fin 128) (h : Fin 64) :
    capV it w2 (ix2 r h) = squash (∑ h' : Fin 64, voteV it w2 (ix2 r h') * voteV it w2 (ix2 r h')) * voteV it w2 (ix2 r h) := by
  unfold capV
  refine (mulf_apply _ _ _).trans ?_
  rw [Cert.DenseRows.col_bcast_apply, factorV_apply, normV_apply]

theorem agreeOf_apply (it : FVec Ideal S128x50x64 .f32) (ic : FVec Ideal S128x64 .f32) (r : Fin 128) (s : Fin 50) :
    agreeOf it ic (ix2 r s) = ∑ h : Fin 64, it (ix3 r s h) * ic (ix2 r h) := by
  unfold agreeOf
  refine (Cert.AxisSums.sum_last_apply _ _ reduces_S128x50x64_S128x50 _ _ r s).trans ?_
  refine Finset.sum_congr rfl fun h _ => ?_
  refine (mulf_apply _ _ _).trans ?_
  rw [Cert.Rank3UnitAxes.broadcastTo_a1n_abn_apply, Cert.Rank3UnitAxes.shapeCast_an_a1n_apply]

/-! ## The stages are the specification's row functions

When the slice's weights and predictions at row `r` are row `r`'s weights and predictions of capsule `k`. -/

section Row

variable (it : FVec Ideal S128x50x64 .f32) (w2 : FVec Ideal S128x50 .f32) (wr : RowW) (xr : RowX) (k : Fin 4) (r : Fin 128)
variable (hw : ∀ s : Fin 50, w2 (ix2 r s) = wr k s) (hx : ∀ (s : Fin 50) (h : Fin 64), it (ix3 r s h) = xr s k h)

include hw hx in
theorem voteV_row (h : Fin 64) : voteV it w2 (ix2 r h) = vote wr xr k h := by
  rw [voteV_apply]
  exact Finset.sum_congr rfl fun s _ => by rw [hw s, hx s h]

include hw hx in
theorem capV_row (h : Fin 64) : capV it w2 (ix2 r h) = capsuleRow wr xr k h := by
  rw [capV_apply, voteV_row it w2 wr xr k r hw hx h]
  unfold capsuleRow normSq
  refine congrArg (fun c => squash c * vote wr xr k h) ?_
  exact Finset.sum_congr rfl fun h' _ => by rw [voteV_row it w2 wr xr k r hw hx h']

include hw hx in
theorem agreeV_row (s : Fin 50) : agreeV it w2 (ix2 r s) = agreeRow wr xr k s := by
  unfold agreeV
  rw [agreeOf_apply]
  unfold agreeRow
  exact Finset.sum_congr rfl fun h _ => by rw [hx s h, capV_row it w2 wr xr k r hw hx h]

end Row

end Cert.KernelIdeal.Stages

end
-- ==== Proof.Pieces.lean ====
/-
  What a routing body leaves in its output block, as ONE function of the input blocks, index by index.

  A block is 128 batch rows. The predictions come as `X0 : [128, 50, 256]` with capsule `k`'s 64 hidden
  coordinates in lanes `64 k … 64 k + 63`; the weights `X1` and the logits `X2` as `[128, 4, 50]`. The body
  works capsule by capsule: it cuts capsule `k`'s lanes, weights and logits out of the blocks, runs the stages on
  them and stores one `[128, 1, 50]` (or `[128, 1, 64]`) slab at capsule `k`. So the four slabs are tiles of one
  function of the block index: at `(r, k, s)` the logit plus row `r`'s agreement of position `s` with capsule `k`;
  in the last round, at `(r, k, h)`, row `r`'s squashed capsule.
-/
import proofs.«110791_j42090679501341_2_alg».proof.Proof.Gen.KernelIdeal.Frame
import proofs.«110791_j42090679501341_2_alg».proof.Proof.Stages

noncomputable section

namespace Cert.KernelIdeal.Pieces

open Cert.KernelIdeal Cert.KernelIdeal.Gen Cert.KernelIdeal.Stages Cert.Routing
open Idealize.ShloMosaic Idealize.ShloMosaic.TcCoe Idealize.ShloMosaic.ValueIdx

/-! ## A slice's stored slab, from its three cut-outs -/

section Defs

variable {F : FTy → Type} [FloatOps F]

/-- The slab of new logits: the capsule's old logits plus the agreement. -/
def logitSlab (cwk : FVec F S128x50 .f32) (it : FVec F S128x50x64 .f32) (w2 : FVec F S128x50 .f32) : FVec F S128x1x50 .f32 :=
  shapeCast S128x1x50 (addf cwk (agreeV it w2)) shapeCasts_S128x50_S128x1x50

/-- The slab of squashed capsules. -/
def capSlab (it : FVec F S128x50x64 .f32) (w2 : FVec F S128x50 .f32) : FVec F S128x1x64 .f32 :=
  shapeCast S128x1x64 (capV it w2) shapeCasts_S128x64_S128x1x64

/-- The three cut-outs: a capsule's logits out of the logits block, its lanes (an identity re-lay) and its weights. -/
abbrev cutLogits (off : Fin 3 → Nat) (hs : S128x4x50.Slices off S128x1x50) (v0 : Vec F S128x4x50 .f32) : FVec F S128x50 .f32 :=
  shapeCast S128x50 (extractStridedSlice S128x1x50 off v0 hs) shapeCasts_S128x1x50_S128x50
abbrev relay (v : Vec F S128x50x64 .f32) : FVec F S128x50x64 .f32 := shapeCast S128x50x64 v shapeCasts_S128x50x64_S128x50x64
abbrev unrow (v : Vec F S128x1x50 .f32) : FVec F S128x50 .f32 := shapeCast S128x50 v shapeCasts_S128x1x50_S128x50

/-! Each store's payload IS the slab of its cut-outs: the printed operations, regrouped. -/

theorem pay0_a (v0 : Vec F S128x4x50 .f32) (v1 : Vec F S128x50x64 .f32) (v3 : Vec F S128x1x50 .f32) :
    k0_pay2 v0 v1 v3 = logitSlab (cutLogits ![0, 0, 0] slices_S128x4x50_o0_0_0_S128x1x50 v0) (relay v1) (unrow v3) := rfl
theorem pay0_b (v0 : Vec F S128x4x50 .f32) (v1 : Vec F S128x50x64 .f32) (v3 : Vec F S128x1x50 .f32) :
    k0_pay5 v0 (k0_pay3 v1) (k0_pay4 v3) = logitSlab (cutLogits ![0, 1, 0] slices_S128x4x50_o0_1_0_S128x1x50 v0) (relay v1) (unrow v3) := rfl
theorem pay0_c (v0 : Vec F S128x4x50 .f32) (v1 : Vec F S128x50x64 .f32) (v3 : Vec F S128x1x50 .f32) :
    k0_pay11 v0 (k0_pay6 v1) (k0_pay7 v1 v3) (k0_pay8 v1 v3) (k0_pay9 v1 v3) (k0_pay10 (F := F))
      = logitSlab (cutLogits ![0, 2, 0] slices_S128x4x50_o0_2_0_S128x1x50 v0) (relay v1) (unrow v3) := rfl
theorem pay0_d (v0 : Vec F S128x4x50 .f32) (v1 : Vec F S128x50x64 .f32) (v3 : Vec F S128x1x50 .f32) :
    k0_pay1 (k0_pay12 v0 v1 v3) = logitSlab (cutLogits ![0, 3, 0] slices_S128x4x50_o0_3_0_S128x1x50 v0) (relay v1) (unrow v3) := rfl

theorem pay1_a (v0 : Vec F S128x4x50 .f32) (v1 : Vec F S128x50x64 .f32) (v3 : Vec F S128x1x50 .f32) :
    k1_pay3 v0 v1 v3 = logitSlab (cutLogits ![0, 0, 0] slices_S128x4x50_o0_0_0_S128x1x50 (k1_pay2 v0)) (relay v1) (unrow v3) := rfl
theorem pay1_b (v0 : Vec F S128x4x50 .f32) (v1 : Vec F S128x50x64 .f32) (v3 : Vec F S128x1x50 .f32) :
    k1_pay5 (k1_pay2 v0) (k1_pay4 v1) v3 = logitSlab (cutLogits ![0, 1, 0] slices_S128x4x50_o0_1_0_S128x1x50 (k1_pay2 v0)) (relay v1) (unrow v3) := rfl
theorem pay1_c (v0 : Vec F S128x4x50 .f32) (v1 : Vec F S128x50x64 .f32) (v3 : Vec F S128x1x50 .f32) :
    k1_pay10 (k1_pay2 v0) (k1_pay6 v1) (k1_pay7 v1 v3) (k1_pay8 v1 v3) (k1_pay9 v1 v3) (Scalar.ofBits .f32 0x3089705F#32)
      = logitSlab (cutLogits ![0, 2, 0] slices_S128x4x50_o0_2_0_S128x1x50 (k1_pay2 v0)) (relay v1) (unrow v3) := rfl
theorem pay1_d (v0 : Vec F S128x4x50 .f32) (v1 : Vec F S128x50x64 .f32) (v3 : Vec F S128x1x50 .f32) :
    k1_pay1 (k1_pay11 (k1_pay2 v0) v1 v3) = logitSlab (cutLogits ![0, 3, 0] slices_S128x4x50_o0_3_0_S128x1x50 (k1_pay2 v0)) (relay v1) (unrow v3) := rfl

theorem pay2_a (v1 : Vec F S128x50x64 .f32) (v3 : Vec F S128x1x50 .f32) : k2_pay2 v1 v3 = capSlab (relay v1) (unrow v3) := rfl
theorem pay2_b (v1 : Vec F S128x50x64 .f32) (v3 : Vec F S128x1x50 .f32) :
    k2_pay6 (k2_pay3 v1 v3) (k2_pay4 v1 v3) (k2_pay5 v1 v3) = capSlab (relay v1) (unrow v3) := rfl
theorem pay2_c (v1 : Vec F S128x50x64 .f32) (v3 : Vec F S128x1x50 .f32) : k2_pay7 v1 v3 = capSlab (relay v1) (unrow v3) := rfl
theorem pay2_d (v1 : Vec F S128x50x64 .f32) (v3 : Vec F S128x1x50 .f32) : k2_pay1 (k2_pay8 v1) v3 = capSlab (relay v1) (unrow v3) := rfl

end Defs

/-! ## The block functions -/

/-- Capsule `k`'s hidden coordinate `h` sits in lane `64 k + h`. -/
def lane (k : Fin 4) (h : Fin 64) : Fin 256 := ⟨64 * k.val + h.val, by omega⟩

/-- Row `r` of a weights block and of a predictions block, as one row's data. -/
def blockW (X1 : FVec Ideal S128x4x50 .f32) (r : Fin 128) : RowW := fun k s => X1 (ix3 r k s)
def blockX (X0 : FVec Ideal S128x50x256 .f32) (r : Fin 128) : RowX := fun s k h => X0 (ix3 r s (lane k h))

/-- The new logits of a block at `(r, k, s)`. -/
def blockStep (X0 : FVec Ideal S128x50x256 .f32) (X1 X2 : FVec Ideal S128x4x50 .f32) (r : Fin 128) (k : Fin 4) (s : Fin 50) : EReal :=
  X2 (ix3 r k s) + agreeRow (blockW X1 r) (blockX X0 r) k s

/-- The squashed capsules of a block at `(r, k, h)`. -/
def blockCaps (X0 : FVec Ideal S128x50x256 .f32) (X1 : FVec Ideal S128x4x50 .f32) (r : Fin 128) (k : Fin 4) (h : Fin 64) : EReal :=
  capsuleRow (blockW X1 r) (blockX X0 r) k h

/-! ## Reading the cut-outs and the slabs -/

/-- A slab of logits at `(r, ·, s)`, when its cut-outs are capsule `k`'s. -/
theorem logitSlab_apply (cwk : FVec Ideal S128x50 .f32) (it : FVec Ideal S128x50x64 .f32) (w2 : FVec Ideal S128x50 .f32)
    (X0 : FVec Ideal S128x50x256 .f32) (X1 X2 : FVec Ideal S128x4x50 .f32) (k : Fin 4)
    (h1 : ∀ (r : Fin 128) (s : Fin 50), cwk (ix2 r s) = X2 (ix3 r k s))
    (h2 : ∀ (r : Fin 128) (s : Fin 50), w2 (ix2 r s) = X1 (ix3 r k s))
    (h3 : ∀ (r : Fin 128) (s : Fin 50) (h : Fin 64), it (ix3 r s h) = X0 (ix3 r s (lane k h)))
    (r : Fin 128) (u : Fin 1) (s : Fin 50) :
    logitSlab cwk it w2 (ix3 r u s) = blockStep X0 X1 X2 r k s := by
  unfold logitSlab
  rw [Cert.Rank3UnitAxes.shapeCast_an_a1n_apply]
  refine (addf_apply _ _ _).trans ?_
  rw [h1, agreeV_row it w2 (blockW X1 r) (blockX X0 r) k r (fun s => h2 r s) (fun s h => h3 r s h) s]
  rfl

/-- A slab of capsules at `(r, ·, h)`, when its cut-outs are capsule `k`'s. -/
theorem capSlab_apply (it : FVec Ideal S128x50x64 .f32) (w2 : FVec Ideal S128x50 .f32)
    (X0 : FVec Ideal S128x50x256 .f32) (X1 : FVec Ideal S128x4x50 .f32) (k : Fin 4)
    (h2 : ∀ (r : Fin 128) (s : Fin 50), w2 (ix2 r s) = X1 (ix3 r k s))
    (h3 : ∀ (r : Fin 128) (s : Fin 50) (h : Fin 64), it (ix3 r s h) = X0 (ix3 r s (lane k h)))
    (r : Fin 128) (u : Fin 1) (h : Fin 64) :
    capSlab it w2 (ix3 r u h) = blockCaps X0 X1 r k h := by
  unfold capSlab
  rw [Cert.Rank3UnitAxes.shapeCast_an_a1n_apply]
  exact capV_row it w2 (blockW X1 r) (blockX X0 r) k r (fun s => h2 r s) (fun s h => h3 r s h) h

/-- Capsule `kn`'s weights, loaded through the `[128, 1, 50]` rectangle at `(0, kn, 0)` and re-laid as `[128, 50]`. -/
theorem unrow_ld (X1 : FVec Ideal S128x4x50 .f32) (kn : ℕ) (hk : kn < 4)
    (inb : ∀ a, (![0, kn, 0] : Fin 3 → Nat) a + S128x1x50.size a ≤ S128x4x50.size a) (r : Fin 128) (s : Fin 50) :
    unrow (View.ld X1 (Rect.unit (s := S128x4x50) ![0, kn, 0] S128x1x50.size inb)) (ix2 r s) = X1 (ix3 r ⟨kn, hk⟩ s) := by
  show shapeCast S128x50 _ shapeCasts_S128x1x50_S128x50 (ix2 r s) = _
  rw [Cert.Rank3UnitAxes.shapeCast_a1n_an_apply]
  refine Cert.Rank3UnitAxes.ld_unit_apply (Val := Elt Ideal) (e := (.f32 : EltTy)) X1 _ _ inb _ (ix3 r ⟨kn, hk⟩ s) fun ax => ?_
  match ax with
  | ⟨0, _⟩ => show r.val = 0 + r.val; omega
  | ⟨1, _⟩ => show kn = kn + 0; omega
  | ⟨2, _⟩ => show s.val = 0 + s.val; omega

/-- Capsule `kn`'s lanes, loaded through the `[128, 50, 64]` rectangle at `(0, 0, 64 kn)` (the re-lay is the identity). -/
theorem relay_ld (X0 : FVec Ideal S128x50x256 .f32) (kn o : ℕ) (hk : kn < 4) (ho : o = 64 * kn)
    (inb : ∀ a, (![0, 0, o] : Fin 3 → Nat) a + S128x50x64.size a ≤ S128x50x256.size a) (r : Fin 128) (s : Fin 50) (h : Fin 64) :
    relay (View.ld X0 (Rect.unit (s := S128x50x256) ![0, 0, o] S128x50x64.size inb)) (ix3 r s h) = X0 (ix3 r s (lane ⟨kn, hk⟩ h)) := by
  show shapeCast S128x50x64 _ shapeCasts_S128x50x64_S128x50x64 (ix3 r s h) = _
  rw [shapeCast_self]
  refine Cert.Rank3UnitAxes.ld_unit_apply (Val := Elt Ideal) (e := (.f32 : EltTy)) X0 _ _ inb _ (ix3 r s (lane ⟨kn, hk⟩ h)) fun ax => ?_
  match ax with
  | ⟨0, _⟩ => show r.val = 0 + r.val; omega
  | ⟨1, _⟩ => show s.val = 0 + s.val; omega
  | ⟨2, _⟩ => show 64 * kn + h.val = o + h.val; omega

/-- Capsule `kn`'s logits, cut out of a whole logits block. -/
theorem cutLogits_apply (V : FVec Ideal S128x4x50 .f32) (kn : ℕ) (hk : kn < 4) (hs : S128x4x50.Slices ![0, kn, 0] S128x1x50)
    (r : Fin 128) (s : Fin 50) :
    cutLogits ![0, kn, 0] hs V (ix2 r s) = V (ix3 r ⟨kn, hk⟩ s) := by
  show shapeCast S128x50 _ shapeCasts_S128x1x50_S128x50 (ix2 r s) = _
  rw [Cert.Rank3UnitAxes.shapeCast_a1n_an_apply]
  refine extractStridedSlice_apply _ V hs _ (ix3 r ⟨kn, hk⟩ s) fun ax => ?_
  match ax with
  | ⟨0, _⟩ => show r.val = 0 + r.val; omega
  | ⟨1, _⟩ => show kn = kn + 0; omega
  | ⟨2, _⟩ => show s.val = 0 + s.val; omega

/-- A whole-block load is the block. -/
theorem ld_whole (X2 : Vec Ideal S128x4x50 .f32) (inb : ∀ a, (![0, 0, 0] : Fin 3 → Nat) a + S128x4x50.size a ≤ S128x4x50.size a) :
    View.ld X2 (Rect.unit (s := S128x4x50) ![0, 0, 0] S128x4x50.size inb) = X2 :=
  View.ld_unit_zero (Val := Elt Ideal) (e := (.f32 : EltTy)) (funext fun a => by match a with | ⟨0, _⟩ => rfl | ⟨1, _⟩ => rfl | ⟨2, _⟩ => rfl) inb X2

/-- The slab stored at `(0, kn, 0)` sits at capsule `kn` of the block. -/
theorem emb_slab {n : ℕ} (kn : ℕ) (hk : kn < 4)
    (inb : ∀ a, (![0, kn, 0] : Fin 3 → Nat) a + (![128, 1, n] : Fin 3 → Nat) a ≤ (![128, 4, n] : Fin 3 → Nat) a)
    (r : Fin 128) (u : Fin 1) (s : Fin n) :
    (Rect.unit (s := ⟨3, ![128, 4, n]⟩) ![0, kn, 0] ![128, 1, n] inb).emb (ix3 r u s) = ix3 r ⟨kn, hk⟩ s := by
  funext ax
  refine Fin.ext ?_
  rw [Rect.emb_apply]
  have hu : u.val = 0 := by omega
  match ax with
  | ⟨0, _⟩ => show 0 + 1 * r.val = r.val; omega
  | ⟨1, _⟩ => show kn + 1 * u.val = kn; omega
  | ⟨2, _⟩ => show 0 + 1 * s.val = s.val; omega

end Cert.KernelIdeal.Pieces

end
-- ==== Proof.Blocks.lean ====
/-
  The output block of each routing body is ONE function of the input blocks.

  The body's four stores are slabs at capsules 0 … 3; each slab is the tile, through its rectangle, of the block
  function (new logits, or squashed capsules in the last round) of the blocks it was cut from, and the four
  rectangles tile the block. So the buffer after the body is that function at every index.
-/
import proofs.«110791_j42090679501341_2_alg».proof.Proof.Pieces

noncomputable section

namespace Cert.KernelIdeal.Blocks

open Cert.KernelIdeal Cert.KernelIdeal.Gen Cert.KernelIdeal.Stages Cert.KernelIdeal.Pieces Cert.Routing
open Idealize.ShloMosaic Idealize.ShloMosaic.TcCoe Idealize.ShloMosaic.ValueIdx

/-- The new logits of a block, as a function of the block index. -/
def stepBlock (X0 : FVec Ideal S128x50x256 .f32) (X1 X2 : FVec Ideal S128x4x50 .f32) : FVec Ideal S128x4x50 .f32 :=
  fun y => blockStep X0 X1 X2 (y 0) (y 1) (y 2)

/-- The squashed capsules of a block, as a function of the block index. -/
def capsBlock (X0 : FVec Ideal S128x50x256 .f32) (X1 : FVec Ideal S128x4x50 .f32) : FVec Ideal S128x4x64 .f32 :=
  fun y => blockCaps X0 X1 (y 0) (y 1) (y 2)

theorem stepBlock_ix3 (X0 : FVec Ideal S128x50x256 .f32) (X1 X2 : FVec Ideal S128x4x50 .f32) (r : Fin 128) (k : Fin 4) (s : Fin 50) :
    stepBlock X0 X1 X2 (ix3 r k s) = blockStep X0 X1 X2 r k s := rfl

theorem capsBlock_ix3 (X0 : FVec Ideal S128x50x256 .f32) (X1 : FVec Ideal S128x4x50 .f32) (r : Fin 128) (k : Fin 4) (h : Fin 64) :
    capsBlock X0 X1 (ix3 r k h) = blockCaps X0 X1 r k h := rfl

/-- The slab of new logits stored at capsule `kn` is the tile of `stepBlock` through its rectangle: its logits are
    cut from a vector `V` that is the logits block, its lanes loaded at `64 kn`, its weights at capsule `kn`. -/
theorem logit_tile (X0 : FVec Ideal S128x50x256 .f32) (X1 X2 V : FVec Ideal S128x4x50 .f32) (hV : V = X2)
    (kn o : ℕ) (hk : kn < 4) (ho : o = 64 * kn) (hs : S128x4x50.Slices ![0, kn, 0] S128x1x50)
    (inb0 : ∀ a, (![0, 0, o] : Fin 3 → Nat) a + S128x50x64.size a ≤ S128x50x256.size a)
    (inb1 : ∀ a, (![0, kn, 0] : Fin 3 → Nat) a + S128x1x50.size a ≤ S128x4x50.size a)
    (inbo : ∀ a, (![0, kn, 0] : Fin 3 → Nat) a + S128x1x50.size a ≤ S128x4x50.size a)
    (x : (Rect.unit (s := S128x4x50) ![0, kn, 0] S128x1x50.size inbo).shape.Idx) :
    logitSlab (cutLogits ![0, kn, 0] hs V) (relay (View.ld X0 (Rect.unit (s := S128x50x256) ![0, 0, o] S128x50x64.size inb0)))
        (unrow (View.ld X1 (Rect.unit (s := S128x4x50) ![0, kn, 0] S128x1x50.size inb1))) x
      = stepBlock X0 X1 X2 ((Rect.unit (s := S128x4x50) ![0, kn, 0] S128x1x50.size inbo).emb x) := by
  subst hV
  obtain ⟨r, u, s, rfl⟩ : ∃ (r : Fin 128) (u : Fin 1) (s : Fin 50), x = ix3 r u s := ⟨x 0, x 1, x 2, @eq_ix3 128 1 50 x⟩
  have hE := emb_slab (n := 50) kn hk inbo r u s
  refine Eq.trans ?_ (congrArg (stepBlock X0 X1 V) hE).symm
  rw [stepBlock_ix3]
  exact logitSlab_apply _ _ _ X0 X1 V ⟨kn, hk⟩ (fun r s => cutLogits_apply V kn hk hs r s)
    (fun r s => unrow_ld X1 kn hk inb1 r s) (fun r s h => relay_ld X0 kn o hk ho inb0 r s h) r u s

/-- The slab of capsules stored at capsule `kn` is the tile of `capsBlock` through its rectangle. -/
theorem caps_tile (X0 : FVec Ideal S128x50x256 .f32) (X1 : FVec Ideal S128x4x50 .f32)
    (kn o : ℕ) (hk : kn < 4) (ho : o = 64 * kn)
    (inb0 : ∀ a, (![0, 0, o] : Fin 3 → Nat) a + S128x50x64.size a ≤ S128x50x256.size a)
    (inb1 : ∀ a, (![0, kn, 0] : Fin 3 → Nat) a + S128x1x50.size a ≤ S128x4x50.size a)
    (inbo : ∀ a, (![0, kn, 0] : Fin 3 → Nat) a + S128x1x64.size a ≤ S128x4x64.size a)
    (x : (Rect.unit (s := S128x4x64) ![0, kn, 0] S128x1x64.size inbo).shape.Idx) :
    capSlab (relay (View.ld X0 (Rect.unit (s := S128x50x256) ![0, 0, o] S128x50x64.size inb0)))
        (unrow (View.ld X1 (Rect.unit (s := S128x4x50) ![0, kn, 0] S128x1x50.size inb1))) x
      = capsBlock X0 X1 ((Rect.unit (s := S128x4x64) ![0, kn, 0] S128x1x64.size inbo).emb x) := by
  obtain ⟨r, u, h, rfl⟩ : ∃ (r : Fin 128) (u : Fin 1) (h : Fin 64), x = ix3 r u h := ⟨x 0, x 1, x 2, @eq_ix3 128 1 64 x⟩
  have hE := emb_slab (n := 64) kn hk inbo r u h
  refine Eq.trans ?_ (congrArg (capsBlock X0 X1) hE).symm
  rw [capsBlock_ix3]
  exact capSlab_apply _ _ X0 X1 ⟨kn, hk⟩ (fun r s => unrow_ld X1 kn hk inb1 r s) (fun r s h => relay_ld X0 kn o hk ho inb0 r s h) r u h

/-- The identity re-lay of a whole-block load of the logits is the logits block. -/
theorem relaid_logits (X2 : Vec Ideal S128x4x50 .f32) : k1_pay2 (View.ld X2 r1_0) = X2 := by
  show shapeCast S128x4x50 (View.ld X2 r1_0) shapeCasts_S128x4x50_S128x4x50 = X2
  exact (shapeCast_self (s := S128x4x50) (View.ld X2 r1_0) shapeCasts_S128x4x50_S128x4x50).trans (ld_whole X2 _)

/-- Round one's and round two's body: the output block is the new logits of the three input blocks. -/
theorem out0_3_eq (X0 : FVec Ideal S128x50x256 .f32) (X1 X2 : FVec Ideal S128x4x50 .f32) :
    out0_3 (F := Ideal) X0 X1 X2 = stepBlock X0 X1 X2 := by
  funext y
  unfold out0_3
  refine View.canon_apply_of_pieces (Val := Elt Ideal) (e := (.f32 : EltTy)) (stepBlock X0 X1 X2) _ ?_ y (cover0_3 _ _ _ _ y)
  intro p hp x
  simp only [List.mem_cons, List.not_mem_nil, or_false] at hp
  rcases hp with rfl | rfl | rfl | rfl
  · exact (congrFun (pay0_d _ _ _) x).trans (logit_tile X0 X1 X2 _ (ld_whole X2 _) 3 192 (by decide) rfl _ _ _ inb_S128x4x50_S128x1x50_0_3_0 x)
  · exact (congrFun (pay0_c _ _ _) x).trans (logit_tile X0 X1 X2 _ (ld_whole X2 _) 2 128 (by decide) rfl _ _ _ inb_S128x4x50_S128x1x50_0_2_0 x)
  · exact (congrFun (pay0_b _ _ _) x).trans (logit_tile X0 X1 X2 _ (ld_whole X2 _) 1 64 (by decide) rfl _ _ _ inb_S128x4x50_S128x1x50_0_1_0 x)
  · exact (congrFun (pay0_a _ _ _) x).trans (logit_tile X0 X1 X2 _ (ld_whole X2 _) 0 0 (by decide) rfl _ _ _ inb_S128x4x50_S128x1x50_0_0_0 x)

theorem out1_3_eq (X0 : FVec Ideal S128x50x256 .f32) (X1 X2 : FVec Ideal S128x4x50 .f32) :
    out1_3 (F := Ideal) X0 X1 X2 = stepBlock X0 X1 X2 := by
  funext y
  unfold out1_3
  refine View.canon_apply_of_pieces (Val := Elt Ideal) (e := (.f32 : EltTy)) (stepBlock X0 X1 X2) _ ?_ y (cover1_3 _ _ _ _ y)
  intro p hp x
  simp only [List.mem_cons, List.not_mem_nil, or_false] at hp
  rcases hp with rfl | rfl | rfl | rfl
  · exact (congrFun (pay1_d _ _ _) x).trans (logit_tile X0 X1 X2 _ (relaid_logits X2) 3 192 (by decide) rfl _ _ _ inb_S128x4x50_S128x1x50_0_3_0 x)
  · exact (congrFun (pay1_c _ _ _) x).trans (logit_tile X0 X1 X2 _ (relaid_logits X2) 2 128 (by decide) rfl _ _ _ inb_S128x4x50_S128x1x50_0_2_0 x)
  · exact (congrFun (pay1_b _ _ _) x).trans (logit_tile X0 X1 X2 _ (relaid_logits X2) 1 64 (by decide) rfl _ _ _ inb_S128x4x50_S128x1x50_0_1_0 x)
  · exact (congrFun (pay1_a _ _ _) x).trans (logit_tile X0 X1 X2 _ (relaid_logits X2) 0 0 (by decide) rfl _ _ _ inb_S128x4x50_S128x1x50_0_0_0 x)

/-- Round three's body: the output block is the squashed capsules of the two input blocks. -/
theorem out2_2_eq (X0 : FVec Ideal S128x50x256 .f32) (X1 : FVec Ideal S128x4x50 .f32) :
    out2_2 (F := Ideal) X0 X1 = capsBlock X0 X1 := by
  funext y
  unfold out2_2
  refine View.canon_apply_of_pieces (Val := Elt Ideal) (e := (.f32 : EltTy)) (capsBlock X0 X1) _ ?_ y (cover2_2 _ _ _ _ y)
  intro p hp x
  simp only [List.mem_cons, List.not_mem_nil, or_false] at hp
  rcases hp with rfl | rfl | rfl | rfl
  · exact (congrFun (pay2_d _ _) x).trans (caps_tile X0 X1 3 192 (by decide) rfl _ _ inb_S128x4x64_S128x1x64_0_3_0 x)
  · exact (congrFun (pay2_c _ _) x).trans (caps_tile X0 X1 2 128 (by decide) rfl _ _ inb_S128x4x64_S128x1x64_0_2_0 x)
  · exact (congrFun (pay2_b _ _) x).trans (caps_tile X0 X1 1 64 (by decide) rfl _ _ inb_S128x4x64_S128x1x64_0_1_0 x)
  · exact (congrFun (pay2_a _ _) x).trans (caps_tile X0 X1 0 0 (by decide) rfl _ _ inb_S128x4x64_S128x1x64_0_0_0 x)

end Cert.KernelIdeal.Blocks

end
-- ==== Proof.ArrDefs.lean ====
/-
  The routing round on whole arrays, with the predictions in their lane layout `[4096, 50, 256]`
  (capsule `k`'s hidden coordinate `h` in lane `64 k + h`): the new logits and the squashed capsules as
  functions of the array index, row by row.
-/
import proofs.«110791_j42090679501341_2_alg».proof.Proof.Blocks

noncomputable section

namespace Cert.KernelIdeal.Arrays

open Cert.KernelIdeal Cert.KernelIdeal.Pieces Cert.Routing
open Idealize.ShloMosaic Idealize.ShloMosaic.TcCoe Idealize.ShloMosaic.ValueIdx

/-- Row `b` of a weights array and of the lane-laid predictions, as one row's data. -/
def arrW (A1 : FVec Ideal S4096x4x50 .f32) (b : Fin 4096) : RowW := fun k s => A1 (ix3 b k s)
def arrX (A0 : FVec Ideal S4096x50x256 .f32) (b : Fin 4096) : RowX := fun s k h => A0 (ix3 b s (lane k h))

/-- One round's new logits. -/
def stepArr (A0 : FVec Ideal S4096x50x256 .f32) (A1 A2 : FVec Ideal S4096x4x50 .f32) : FVec Ideal S4096x4x50 .f32 :=
  fun i => A2 i + agreeRow (arrW A1 (i 0)) (arrX A0 (i 0)) (i 1) (i 2)

/-- One round's squashed capsules. -/
def capsArr (A0 : FVec Ideal S4096x50x256 .f32) (A1 : FVec Ideal S4096x4x50 .f32) : FVec Ideal S4096x4x64 .f32 :=
  fun i => capsuleRow (arrW A1 (i 0)) (arrX A0 (i 0)) (i 1) (i 2)

theorem stepArr_ix3 (A0 : FVec Ideal S4096x50x256 .f32) (A1 A2 : FVec Ideal S4096x4x50 .f32) (b : Fin 4096) (k : Fin 4) (s : Fin 50) :
    stepArr A0 A1 A2 (ix3 b k s) = A2 (ix3 b k s) + agreeRow (arrW A1 b) (arrX A0 b) k s := rfl

theorem capsArr_ix3 (A0 : FVec Ideal S4096x50x256 .f32) (A1 : FVec Ideal S4096x4x50 .f32) (b : Fin 4096) (k : Fin 4) (h : Fin 64) :
    capsArr A0 A1 (ix3 b k h) = capsuleRow (arrW A1 b) (arrX A0 b) k h := rfl

end Cert.KernelIdeal.Arrays

end
-- ==== Proof.Arrays0.lean ====
/-
  Round one's kernel on whole arrays: what its output array holds after all 32 blocks are written back.

  Point `t` of the grid works on batch rows `128 t … 128 t + 127` of every window (each index map is `(t, 0, 0)`),
  so an element `(r, ·, ·)` of a block sits at row `128 t + r` of its array, and the rows of the 32 output blocks
  cover the 4096 rows: row `b` is in block `b / 128`. The block function of the three input blocks at row `r` is
  the array function at row `128 t + r`, because a row's routing reads that row only.
-/
import proofs.«110791_j42090679501341_2_alg».proof.Proof.ArrDefs
import Idealize.ShloMosaic.Lib.Pipeline.Value

set_option maxRecDepth 16384

noncomputable section

namespace Cert.KernelIdeal.Arrays0

open Cert.KernelIdeal Cert.KernelIdeal.Gen Cert.KernelIdeal.Pieces Cert.KernelIdeal.Blocks Cert.KernelIdeal.Arrays Cert.Routing
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: every window's block index at point `t` is `(t, 0, 0)`. -/
theorem idx : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem row_lt (t : Fin cfg0.N) (r : Fin 128) : t.val * 128 + r.val < 4096 := by
  have hN : cfg0.N = 32 := N_0
  have := t.isLt; have := r.isLt; omega

/-- The batch row of the arrays that row `r` of point `t`'s blocks is. -/
def rowOf (t : Fin cfg0.N) (r : Fin 128) : Fin 4096 := ⟨t.val * 128 + r.val, row_lt t r⟩

/-- Where an element of point `t`'s block sits in the array, window by window. -/
theorem emb0 (t : Fin cfg0.N) (r : Fin 128) (s : Fin 50) (l : Fin 256) :
    ((cfg0.win 0).blk t).view.emb (ix3 r s l) = ix3 (rowOf t r) s l := by
  obtain ⟨e0, e1, e2, -⟩ := idx t
  funext a; apply Fin.ext
  match a with
  | ⟨0, _⟩ => show win0_0.index t (0 : Fin 3) * 128 + 1 * r.val = t.val * 128 + r.val; omega
  | ⟨1, _⟩ => show win0_0.index t (1 : Fin 3) * 50 + 1 * s.val = s.val; omega
  | ⟨2, _⟩ => show win0_0.index t (2 : Fin 3) * 256 + 1 * l.val = l.val; omega

theorem emb1 (t : Fin cfg0.N) (r : Fin 128) (k : Fin 4) (s : Fin 50) :
    ((cfg0.win 1).blk t).view.emb (ix3 r k s) = ix3 (rowOf t r) k s := by
  obtain ⟨-, -, -, e0, e1, e2, -⟩ := idx t
  funext a; apply Fin.ext
  match a with
  | ⟨0, _⟩ => show win0_1.index t (0 : Fin 3) * 128 + 1 * r.val = t.val * 128 + r.val; omega
  | ⟨1, _⟩ => show win0_1.index t (1 : Fin 3) * 4 + 1 * k.val = k.val; omega
  | ⟨2, _⟩ => show win0_1.index t (2 : Fin 3) * 50 + 1 * s.val = s.val; omega

theorem emb2 (t : Fin cfg0.N) (r : Fin 128) (k : Fin 4) (s : Fin 50) :
    ((cfg0.win 2).blk t).view.emb (ix3 r k s) = ix3 (rowOf t r) k s := by
  obtain ⟨-, -, -, -, -, -, e0, e1, e2, -⟩ := idx t
  funext a; apply Fin.ext
  match a with
  | ⟨0, _⟩ => show win0_2.index t (0 : Fin 3) * 128 + 1 * r.val = t.val * 128 + r.val; omega
  | ⟨1, _⟩ => show win0_2.index t (1 : Fin 3) * 4 + 1 * k.val = k.val; omega
  | ⟨2, _⟩ => show win0_2.index t (2 : Fin 3) * 50 + 1 * s.val = s.val; omega

theorem emb3 (t : Fin cfg0.N) (r : Fin 128) (k : Fin 4) (s : Fin 50) :
    ((cfg0.win 3).blk t).view.emb (ix3 r k s) = ix3 (rowOf t r) k s := by
  obtain ⟨-, -, -, -, -, -, -, -, -, e0, e1, e2⟩ := idx t
  funext a; apply Fin.ext
  match a with
  | ⟨0, _⟩ => show win0_3.index t (0 : Fin 3) * 128 + 1 * r.val = t.val * 128 + r.val; omega
  | ⟨1, _⟩ => show win0_3.index t (1 : Fin 3) * 4 + 1 * k.val = k.val; omega
  | ⟨2, _⟩ => show win0_3.index t (2 : Fin 3) * 50 + 1 * s.val = s.val; omega

/-- The input blocks at point `t`, read at an element: the arrays at the element's place. -/
theorem read0 (c : Dev nD) (t : Fin cfg0.N) (r : Fin 128) (s : Fin 50) (l : Fin 256) :
    iblk0 V c 0 t (ix3 r s l) = V c main_v0 (ix3 (rowOf t r) s l) := by
  show V c main_v0 (((cfg0.win 0).blk t).view.emb (ix3 r s l)) = _
  exact congrArg (V c main_v0) (emb0 t r s l)

theorem read1 (c : Dev nD) (t : Fin cfg0.N) (r : Fin 128) (k : Fin 4) (s : Fin 50) :
    iblk0 V c 1 t (ix3 r k s) = V c main_v17 (ix3 (rowOf t r) k s) := by
  show V c main_v17 (((cfg0.win 1).blk t).view.emb (ix3 r k s)) = _
  exact congrArg (V c main_v17) (emb1 t r k s)

theorem read2 (c : Dev nD) (t : Fin cfg0.N) (r : Fin 128) (k : Fin 4) (s : Fin 50) :
    iblk0 V c 2 t (ix3 r k s) = V c main_arg2 (ix3 (rowOf t r) k s) := by
  show V c main_arg2 (((cfg0.win 2).blk t).view.emb (ix3 r k s)) = _
  exact congrArg (V c main_arg2) (emb2 t r k s)

/-- WHAT POINT `t` WRITES BACK is block `t` of the new logits of the three arrays. -/
theorem flushed_eq (c : Dev nD) (t : Fin cfg0.N) :
    (dat0 V c).flushed 3 t
      = ((cfg0.win 3).blk t).view.read (Elt Ideal) (stepArr (V c main_v0) (V c main_v17) (V c main_arg2)) := by
  show (cfg0.win 3).cut (grid0.coords t) ((dat0 V c).after 3 t) = _
  rw [after0_3]
  funext j
  obtain ⟨r, k, s, rfl⟩ : ∃ (r : Fin 128) (k : Fin 4) (s : Fin 50), j = ix3 r k s := ⟨j 0, j 1, j 2, @eq_ix3 128 4 50 j⟩
  refine (congrFun (out0_3_eq (iblk0 V c 0 t) (iblk0 V c 1 t) (iblk0 V c 2 t)) (ix3 r k s)).trans ?_
  show blockStep (iblk0 V c 0 t) (iblk0 V c 1 t) (iblk0 V c 2 t) r k s
    = stepArr (V c main_v0) (V c main_v17) (V c main_arg2) (((cfg0.win 3).blk t).view.emb (ix3 r k s))
  rw [emb3 t r k s, stepArr_ix3]
  have hW : blockW (iblk0 V c 1 t) r = arrW (V c main_v17) (rowOf t r) := funext fun k' => funext fun s' => read1 V c t r k' s'
  have hX : blockX (iblk0 V c 0 t) r = arrX (V c main_v0) (rowOf t r) :=
    funext fun s' => funext fun k' => funext fun h' => read0 V c t r s' (lane k' h')
  unfold blockStep
  rw [hW, hX, read2 V c t r k s]

/-- An index of the output array is in point `t`'s block iff each coordinate is in the block's range on its axis. -/
theorem mem_blk (t : Fin cfg0.N) (i : S4096x4x50.Idx) :
    i ∈ ((cfg0.win 3).blk t).view.set ↔ ∀ a : Fin 3, win0_3.index t a * S128x4x50.size a ≤ (i a).val ∧ (i a).val < win0_3.index t a * S128x4x50.size a + S128x4x50.size a := by
  show i ∈ ((View.whole main_v18).slice (win0_3.rect t)).set ↔ _
  rw [View.set_slice_whole, Rect.mem_set_unit]
  exact Iff.rfl

/-- Every index of the output array is in the block of the point its row belongs to. -/
theorem cover (i : S4096x4x50.Idx) : ∃ t : Fin cfg0.N, (cfg0.win 3).flush t = true ∧ i ∈ ((cfg0.win 3).blk t).view.set := by
  have hN : cfg0.N = 32 := N_0
  have h0 : (i 0).val < 4096 := (i 0).isLt
  have h1 : (i 1).val < 4 := (i 1).isLt
  have h2 : (i 2).val < 50 := (i 2).isLt
  refine ⟨⟨(i 0).val / 128, by omega⟩, flush0_3 _, ?_⟩
  rw [mem_blk]
  obtain ⟨-, -, -, -, -, -, -, -, -, e0, e1, e2⟩ := idx ⟨(i 0).val / 128, by omega⟩
  intro a
  match a with
  | ⟨0, _⟩ => show win0_3.index _ (0 : Fin 3) * 128 ≤ (i 0).val ∧ (i 0).val < win0_3.index _ (0 : Fin 3) * 128 + 128; rw [e0]; show (i 0).val / 128 * 128 ≤ _ ∧ _ < (i 0).val / 128 * 128 + 128; omega
  | ⟨1, _⟩ => show win0_3.index _ (1 : Fin 3) * 4 ≤ (i 1).val ∧ (i 1).val < win0_3.index _ (1 : Fin 3) * 4 + 4; rw [e1]; omega
  | ⟨2, _⟩ => show win0_3.index _ (2 : Fin 3) * 50 ≤ (i 2).val ∧ (i 2).val < win0_3.index _ (2 : Fin 3) * 50 + 50; rw [e2]; omega

/-- THE OUTPUT ARRAY after the region: the new logits of the three arrays the region found. -/
theorem final (c : Dev nD) :
    (dat0 V c).arrAt 3 cfg0.N = stepArr (V c main_v0) (V c main_v17) (V c main_arg2) :=
  (dat0 V c).arrAt_eq_of_cover 3 _ (fun t _ => flushed_eq V c t) cover

end Cert.KernelIdeal.Arrays0

end
-- ==== Proof.Arrays1.lean ====
/-
  Round two's kernel on whole arrays: what its output array holds after all 32 blocks are written back.

  Point `t` of the grid works on batch rows `128 t … 128 t + 127` of every window (each index map is `(t, 0, 0)`),
  so an element `(r, ·, ·)` of a block sits at row `128 t + r` of its array, and the rows of the 32 output blocks
  cover the 4096 rows: row `b` is in block `b / 128`. The block function of the three input blocks at row `r` is
  the array function at row `128 t + r`, because a row's routing reads that row only.
-/
import proofs.«110791_j42090679501341_2_alg».proof.Proof.ArrDefs
import Idealize.ShloMosaic.Lib.Pipeline.Value

set_option maxRecDepth 16384

noncomputable section

namespace Cert.KernelIdeal.Arrays1

open Cert.KernelIdeal Cert.KernelIdeal.Gen Cert.KernelIdeal.Pieces Cert.KernelIdeal.Blocks Cert.KernelIdeal.Arrays Cert.Routing
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: every window's block index at point `t` is `(t, 0, 0)`. -/
theorem idx : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

theorem row_lt (t : Fin cfg1.N) (r : Fin 128) : t.val * 128 + r.val < 4096 := by
  have hN : cfg1.N = 32 := N_1
  have := t.isLt; have := r.isLt; omega

/-- The batch row of the arrays that row `r` of point `t`'s blocks is. -/
def rowOf (t : Fin cfg1.N) (r : Fin 128) : Fin 4096 := ⟨t.val * 128 + r.val, row_lt t r⟩

/-- Where an element of point `t`'s block sits in the array, window by window. -/
theorem emb0 (t : Fin cfg1.N) (r : Fin 128) (s : Fin 50) (l : Fin 256) :
    ((cfg1.win 0).blk t).view.emb (ix3 r s l) = ix3 (rowOf t r) s l := by
  obtain ⟨e0, e1, e2, -⟩ := idx t
  funext a; apply Fin.ext
  match a with
  | ⟨0, _⟩ => show win1_0.index t (0 : Fin 3) * 128 + 1 * r.val = t.val * 128 + r.val; omega
  | ⟨1, _⟩ => show win1_0.index t (1 : Fin 3) * 50 + 1 * s.val = s.val; omega
  | ⟨2, _⟩ => show win1_0.index t (2 : Fin 3) * 256 + 1 * l.val = l.val; omega

theorem emb1 (t : Fin cfg1.N) (r : Fin 128) (k : Fin 4) (s : Fin 50) :
    ((cfg1.win 1).blk t).view.emb (ix3 r k s) = ix3 (rowOf t r) k s := by
  obtain ⟨-, -, -, e0, e1, e2, -⟩ := idx t
  funext a; apply Fin.ext
  match a with
  | ⟨0, _⟩ => show win1_1.index t (0 : Fin 3) * 128 + 1 * r.val = t.val * 128 + r.val; omega
  | ⟨1, _⟩ => show win1_1.index t (1 : Fin 3) * 4 + 1 * k.val = k.val; omega
  | ⟨2, _⟩ => show win1_1.index t (2 : Fin 3) * 50 + 1 * s.val = s.val; omega

theorem emb2 (t : Fin cfg1.N) (r : Fin 128) (k : Fin 4) (s : Fin 50) :
    ((cfg1.win 2).blk t).view.emb (ix3 r k s) = ix3 (rowOf t r) k s := by
  obtain ⟨-, -, -, -, -, -, e0, e1, e2, -⟩ := idx t
  funext a; apply Fin.ext
  match a with
  | ⟨0, _⟩ => show win1_2.index t (0 : Fin 3) * 128 + 1 * r.val = t.val * 128 + r.val; omega
  | ⟨1, _⟩ => show win1_2.index t (1 : Fin 3) * 4 + 1 * k.val = k.val; omega
  | ⟨2, _⟩ => show win1_2.index t (2 : Fin 3) * 50 + 1 * s.val = s.val; omega

theorem emb3 (t : Fin cfg1.N) (r : Fin 128) (k : Fin 4) (s : Fin 50) :
    ((cfg1.win 3).blk t).view.emb (ix3 r k s) = ix3 (rowOf t r) k s := by
  obtain ⟨-, -, -, -, -, -, -, -, -, e0, e1, e2⟩ := idx t
  funext a; apply Fin.ext
  match a with
  | ⟨0, _⟩ => show win1_3.index t (0 : Fin 3) * 128 + 1 * r.val = t.val * 128 + r.val; omega
  | ⟨1, _⟩ => show win1_3.index t (1 : Fin 3) * 4 + 1 * k.val = k.val; omega
  | ⟨2, _⟩ => show win1_3.index t (2 : Fin 3) * 50 + 1 * s.val = s.val; omega

/-- The input blocks at point `t`, read at an element: the arrays at the element's place. -/
theorem read0 (c : Dev nD) (t : Fin cfg1.N) (r : Fin 128) (s : Fin 50) (l : Fin 256) :
    iblk1 V c 0 t (ix3 r s l) = V c main_v0 (ix3 (rowOf t r) s l) := by
  show V c main_v0 (((cfg1.win 0).blk t).view.emb (ix3 r s l)) = _
  exact congrArg (V c main_v0) (emb0 t r s l)

theorem read1 (c : Dev nD) (t : Fin cfg1.N) (r : Fin 128) (k : Fin 4) (s : Fin 50) :
    iblk1 V c 1 t (ix3 r k s) = V c main_v33 (ix3 (rowOf t r) k s) := by
  show V c main_v33 (((cfg1.win 1).blk t).view.emb (ix3 r k s)) = _
  exact congrArg (V c main_v33) (emb1 t r k s)

theorem read2 (c : Dev nD) (t : Fin cfg1.N) (r : Fin 128) (k : Fin 4) (s : Fin 50) :
    iblk1 V c 2 t (ix3 r k s) = V c main_v18 (ix3 (rowOf t r) k s) := by
  show V c main_v18 (((cfg1.win 2).blk t).view.emb (ix3 r k s)) = _
  exact congrArg (V c main_v18) (emb2 t r k s)

/-- WHAT POINT `t` WRITES BACK is block `t` of the new logits of the three arrays. -/
theorem flushed_eq (c : Dev nD) (t : Fin cfg1.N) :
    (dat1 V c).flushed 3 t
      = ((cfg1.win 3).blk t).view.read (Elt Ideal) (stepArr (V c main_v0) (V c main_v33) (V c main_v18)) := by
  show (cfg1.win 3).cut (grid1.coords t) ((dat1 V c).after 3 t) = _
  rw [after1_3]
  funext j
  obtain ⟨r, k, s, rfl⟩ : ∃ (r : Fin 128) (k : Fin 4) (s : Fin 50), j = ix3 r k s := ⟨j 0, j 1, j 2, @eq_ix3 128 4 50 j⟩
  refine (congrFun (out1_3_eq (iblk1 V c 0 t) (iblk1 V c 1 t) (iblk1 V c 2 t)) (ix3 r k s)).trans ?_
  show blockStep (iblk1 V c 0 t) (iblk1 V c 1 t) (iblk1 V c 2 t) r k s
    = stepArr (V c main_v0) (V c main_v33) (V c main_v18) (((cfg1.win 3).blk t).view.emb (ix3 r k s))
  rw [emb3 t r k s, stepArr_ix3]
  have hW : blockW (iblk1 V c 1 t) r = arrW (V c main_v33) (rowOf t r) := funext fun k' => funext fun s' => read1 V c t r k' s'
  have hX : blockX (iblk1 V c 0 t) r = arrX (V c main_v0) (rowOf t r) :=
    funext fun s' => funext fun k' => funext fun h' => read0 V c t r s' (lane k' h')
  unfold blockStep
  rw [hW, hX, read2 V c t r k s]

/-- An index of the output array is in point `t`'s block iff each coordinate is in the block's range on its axis. -/
theorem mem_blk (t : Fin cfg1.N) (i : S4096x4x50.Idx) :
    i ∈ ((cfg1.win 3).blk t).view.set ↔ ∀ a : Fin 3, win1_3.index t a * S128x4x50.size a ≤ (i a).val ∧ (i a).val < win1_3.index t a * S128x4x50.size a + S128x4x50.size a := by
  show i ∈ ((View.whole main_v34).slice (win1_3.rect t)).set ↔ _
  rw [View.set_slice_whole, Rect.mem_set_unit]
  exact Iff.rfl

/-- Every index of the output array is in the block of the point its row belongs to. -/
theorem cover (i : S4096x4x50.Idx) : ∃ t : Fin cfg1.N, (cfg1.win 3).flush t = true ∧ i ∈ ((cfg1.win 3).blk t).view.set := by
  have hN : cfg1.N = 32 := N_1
  have h0 : (i 0).val < 4096 := (i 0).isLt
  have h1 : (i 1).val < 4 := (i 1).isLt
  have h2 : (i 2).val < 50 := (i 2).isLt
  refine ⟨⟨(i 0).val / 128, by omega⟩, flush1_3 _, ?_⟩
  rw [mem_blk]
  obtain ⟨-, -, -, -, -, -, -, -, -, e0, e1, e2⟩ := idx ⟨(i 0).val / 128, by omega⟩
  intro a
  match a with
  | ⟨0, _⟩ => show win1_3.index _ (0 : Fin 3) * 128 ≤ (i 0).val ∧ (i 0).val < win1_3.index _ (0 : Fin 3) * 128 + 128; rw [e0]; show (i 0).val / 128 * 128 ≤ _ ∧ _ < (i 0).val / 128 * 128 + 128; omega
  | ⟨1, _⟩ => show win1_3.index _ (1 : Fin 3) * 4 ≤ (i 1).val ∧ (i 1).val < win1_3.index _ (1 : Fin 3) * 4 + 4; rw [e1]; omega
  | ⟨2, _⟩ => show win1_3.index _ (2 : Fin 3) * 50 ≤ (i 2).val ∧ (i 2).val < win1_3.index _ (2 : Fin 3) * 50 + 50; rw [e2]; omega

/-- THE OUTPUT ARRAY after the region: the new logits of the three arrays the region found. -/
theorem final (c : Dev nD) :
    (dat1 V c).arrAt 3 cfg1.N = stepArr (V c main_v0) (V c main_v33) (V c main_v18) :=
  (dat1 V c).arrAt_eq_of_cover 3 _ (fun t _ => flushed_eq V c t) cover

end Cert.KernelIdeal.Arrays1

end
-- ==== Proof.Arrays2.lean ====
/-
  Round three's kernel on whole arrays: what its output array holds after all 32 blocks are written back.

  As in the first two rounds point `t` works on batch rows `128 t … 128 t + 127` of every window, the rows of the
  32 output blocks cover the 4096 rows, and the block function at row `r` is the array function at row `128 t + r`;
  here the output is the `[4096, 4, 64]` array of squashed capsules and there are two inputs.
-/
import proofs.«110791_j42090679501341_2_alg».proof.Proof.ArrDefs
import Idealize.ShloMosaic.Lib.Pipeline.Value

set_option maxRecDepth 16384

noncomputable section

namespace Cert.KernelIdeal.Arrays2

open Cert.KernelIdeal Cert.KernelIdeal.Gen Cert.KernelIdeal.Pieces Cert.KernelIdeal.Blocks Cert.KernelIdeal.Arrays Cert.Routing
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: every window's block index at point `t` is `(t, 0, 0)`. -/
theorem idx : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

theorem row_lt (t : Fin cfg2.N) (r : Fin 128) : t.val * 128 + r.val < 4096 := by
  have hN : cfg2.N = 32 := N_2
  have := t.isLt; have := r.isLt; omega

/-- The batch row of the arrays that row `r` of point `t`'s blocks is. -/
def rowOf (t : Fin cfg2.N) (r : Fin 128) : Fin 4096 := ⟨t.val * 128 + r.val, row_lt t r⟩

/-- Where an element of point `t`'s block sits in the array, window by window. -/
theorem emb0 (t : Fin cfg2.N) (r : Fin 128) (s : Fin 50) (l : Fin 256) :
    ((cfg2.win 0).blk t).view.emb (ix3 r s l) = ix3 (rowOf t r) s l := by
  obtain ⟨e0, e1, e2, -⟩ := idx t
  funext a; apply Fin.ext
  match a with
  | ⟨0, _⟩ => show win2_0.index t (0 : Fin 3) * 128 + 1 * r.val = t.val * 128 + r.val; omega
  | ⟨1, _⟩ => show win2_0.index t (1 : Fin 3) * 50 + 1 * s.val = s.val; omega
  | ⟨2, _⟩ => show win2_0.index t (2 : Fin 3) * 256 + 1 * l.val = l.val; omega

theorem emb1 (t : Fin cfg2.N) (r : Fin 128) (k : Fin 4) (s : Fin 50) :
    ((cfg2.win 1).blk t).view.emb (ix3 r k s) = ix3 (rowOf t r) k s := by
  obtain ⟨-, -, -, e0, e1, e2, -⟩ := idx t
  funext a; apply Fin.ext
  match a with
  | ⟨0, _⟩ => show win2_1.index t (0 : Fin 3) * 128 + 1 * r.val = t.val * 128 + r.val; omega
  | ⟨1, _⟩ => show win2_1.index t (1 : Fin 3) * 4 + 1 * k.val = k.val; omega
  | ⟨2, _⟩ => show win2_1.index t (2 : Fin 3) * 50 + 1 * s.val = s.val; omega

theorem emb2 (t : Fin cfg2.N) (r : Fin 128) (k : Fin 4) (h : Fin 64) :
    ((cfg2.win 2).blk t).view.emb (ix3 r k h) = ix3 (rowOf t r) k h := by
  obtain ⟨-, -, -, -, -, -, e0, e1, e2⟩ := idx t
  funext a; apply Fin.ext
  match a with
  | ⟨0, _⟩ => show win2_2.index t (0 : Fin 3) * 128 + 1 * r.val = t.val * 128 + r.val; omega
  | ⟨1, _⟩ => show win2_2.index t (1 : Fin 3) * 4 + 1 * k.val = k.val; omega
  | ⟨2, _⟩ => show win2_2.index t (2 : Fin 3) * 64 + 1 * h.val = h.val; omega

/-- The input blocks at point `t`, read at an element: the arrays at the element's place. -/
theorem read0 (c : Dev nD) (t : Fin cfg2.N) (r : Fin 128) (s : Fin 50) (l : Fin 256) :
    iblk2 V c 0 t (ix3 r s l) = V c main_v0 (ix3 (rowOf t r) s l) := by
  show V c main_v0 (((cfg2.win 0).blk t).view.emb (ix3 r s l)) = _
  exact congrArg (V c main_v0) (emb0 t r s l)

theorem read1 (c : Dev nD) (t : Fin cfg2.N) (r : Fin 128) (k : Fin 4) (s : Fin 50) :
    iblk2 V c 1 t (ix3 r k s) = V c main_v49 (ix3 (rowOf t r) k s) := by
  show V c main_v49 (((cfg2.win 1).blk t).view.emb (ix3 r k s)) = _
  exact congrArg (V c main_v49) (emb1 t r k s)

/-- WHAT POINT `t` WRITES BACK is block `t` of the squashed capsules of the two arrays. -/
theorem flushed_eq (c : Dev nD) (t : Fin cfg2.N) :
    (dat2 V c).flushed 2 t
      = ((cfg2.win 2).blk t).view.read (Elt Ideal) (capsArr (V c main_v0) (V c main_v49)) := by
  show (cfg2.win 2).cut (grid2.coords t) ((dat2 V c).after 2 t) = _
  rw [after2_2]
  funext j
  obtain ⟨r, k, h, rfl⟩ : ∃ (r : Fin 128) (k : Fin 4) (h : Fin 64), j = ix3 r k h := ⟨j 0, j 1, j 2, @eq_ix3 128 4 64 j⟩
  refine (congrFun (out2_2_eq (iblk2 V c 0 t) (iblk2 V c 1 t)) (ix3 r k h)).trans ?_
  show blockCaps (iblk2 V c 0 t) (iblk2 V c 1 t) r k h
    = capsArr (V c main_v0) (V c main_v49) (((cfg2.win 2).blk t).view.emb (ix3 r k h))
  rw [emb2 t r k h, capsArr_ix3]
  have hW : blockW (iblk2 V c 1 t) r = arrW (V c main_v49) (rowOf t r) := funext fun k' => funext fun s' => read1 V c t r k' s'
  have hX : blockX (iblk2 V c 0 t) r = arrX (V c main_v0) (rowOf t r) :=
    funext fun s' => funext fun k' => funext fun h' => read0 V c t r s' (lane k' h')
  unfold blockCaps
  rw [hW, hX]

/-- An index of the output array is in point `t`'s block iff each coordinate is in the block's range on its axis. -/
theorem mem_blk (t : Fin cfg2.N) (i : S4096x4x64.Idx) :
    i ∈ ((cfg2.win 2).blk t).view.set ↔ ∀ a : Fin 3, win2_2.index t a * S128x4x64.size a ≤ (i a).val ∧ (i a).val < win2_2.index t a * S128x4x64.size a + S128x4x64.size a := by
  show i ∈ ((View.whole main_v50).slice (win2_2.rect t)).set ↔ _
  rw [View.set_slice_whole, Rect.mem_set_unit]
  exact Iff.rfl

/-- Every index of the output array is in the block of the point its row belongs to. -/
theorem cover (i : S4096x4x64.Idx) : ∃ t : Fin cfg2.N, (cfg2.win 2).flush t = true ∧ i ∈ ((cfg2.win 2).blk t).view.set := by
  have hN : cfg2.N = 32 := N_2
  have h0 : (i 0).val < 4096 := (i 0).isLt
  have h1 : (i 1).val < 4 := (i 1).isLt
  have h2 : (i 2).val < 64 := (i 2).isLt
  refine ⟨⟨(i 0).val / 128, by omega⟩, flush2_2 _, ?_⟩
  rw [mem_blk]
  obtain ⟨-, -, -, -, -, -, e0, e1, e2⟩ := idx ⟨(i 0).val / 128, by omega⟩
  intro a
  match a with
  | ⟨0, _⟩ => show win2_2.index _ (0 : Fin 3) * 128 ≤ (i 0).val ∧ (i 0).val < win2_2.index _ (0 : Fin 3) * 128 + 128; rw [e0]; show (i 0).val / 128 * 128 ≤ _ ∧ _ < (i 0).val / 128 * 128 + 128; omega
  | ⟨1, _⟩ => show win2_2.index _ (1 : Fin 3) * 4 ≤ (i 1).val ∧ (i 1).val < win2_2.index _ (1 : Fin 3) * 4 + 4; rw [e1]; omega
  | ⟨2, _⟩ => show win2_2.index _ (2 : Fin 3) * 64 ≤ (i 2).val ∧ (i 2).val < win2_2.index _ (2 : Fin 3) * 64 + 64; rw [e2]; omega

/-- THE OUTPUT ARRAY after the region: the squashed capsules of the two arrays the region found. -/
theorem final (c : Dev nD) :
    (dat2 V c).arrAt 2 cfg2.N = capsArr (V c main_v0) (V c main_v49) :=
  (dat2 V c).arrAt_eq_of_cover 2 _ (fun t _ => flushed_eq V c t) cover

end Cert.KernelIdeal.Arrays2

end
-- ==== Proof.KernelRounds.lean ====
/-
  The idealized kernel's result buffer as a function of the three arguments: three routing rounds over arrays.

  Between the regions @main recomputes the weights from the current logits: a softmax over the batch axis, then zero
  where the mask is zero. That chain of host operations is the same in all three stretches and reads its two inputs
  (the mask broadcast to `[4096, 4, 50]`, computed once, and the current logits) from buffers; it is kept as one
  function `weightsOf` of those two and never opened. Each region then replaces one array by `stepArr` (or, last,
  `capsArr`) of the arrays it finds, and every other buffer rides through unchanged. Reading the boundaries' contents
  one after the other gives the result as the third round's capsules at the logits two rounds have moved.
-/
import proofs.«110791_j42090679501341_2_alg».proof.Proof.Gen.KernelIdeal.Frame
import proofs.«110791_j42090679501341_2_alg».proof.Proof.RefReadP
import proofs.«110791_j42090679501341_2_alg».proof.Proof.Arrays0
import proofs.«110791_j42090679501341_2_alg».proof.Proof.Arrays1
import proofs.«110791_j42090679501341_2_alg».proof.Proof.Arrays2

set_option maxRecDepth 16384

noncomputable section

namespace Cert.KernelIdeal.Rounds

open Cert.KernelIdeal Cert.KernelIdeal.Gen Cert.KernelIdeal.Arrays
open Idealize.ShloMosaic Idealize.ShloMosaic.TcCoe Idealize.SL.Sem Idealize.ShloMosaic.StableHlo

/-- The weights of a round from the broadcast mask and the round's logits: the softmax of the logits over the batch
    axis where the mask is not zero, zero elsewhere. Spelt with the reference's stage functions, whose operations
    the kernel's host stretches repeat. -/
def weightsOf (MB : (⟨S4096x4x50, .i32⟩ : BufTy).Contents (Elt Ideal)) (cw : (⟨S4096x4x50, .f32⟩ : BufTy).Contents (Elt Ideal)) :
    (⟨S4096x4x50, .f32⟩ : BufTy).Contents (Elt Ideal) :=
  select (cmpi .eq MB (Cert.ReferenceIdeal.Read.val_main_v14 (F := Ideal))) (Cert.ReferenceIdeal.Read.val_main_v16 (F := Ideal))
    (Cert.ReferenceIdeal.Read.val_main_v13 (F := Ideal) cw)

/-- At the mask's broadcast it is the reference's own weights stage. -/
theorem weightsOf_ref (x0 : (⟨S4096x50, .i32⟩ : BufTy).Contents (Elt Ideal)) (cw : (⟨S4096x4x50, .f32⟩ : BufTy).Contents (Elt Ideal)) :
    weightsOf (Cert.ReferenceIdeal.Read.val_main_v2 (F := Ideal) x0) cw = Cert.ReferenceIdeal.Read.val_main_v17 (F := Ideal) x0 cw := rfl

/-- One round on arrays, and the three rounds. -/
def kround (MB : (⟨S4096x4x50, .i32⟩ : BufTy).Contents (Elt Ideal)) (X : FVec Ideal S4096x50x256 .f32) (cw : FVec Ideal S4096x4x50 .f32) :
    FVec Ideal S4096x4x50 .f32 := stepArr X (weightsOf MB cw) cw
def krouted (MB : (⟨S4096x4x50, .i32⟩ : BufTy).Contents (Elt Ideal)) (X : FVec Ideal S4096x50x256 .f32) (cw : FVec Ideal S4096x4x50 .f32) :
    FVec Ideal S4096x4x64 .f32 := capsArr X (weightsOf MB (kround MB X (kround MB X cw)))

/-! ## The host stretches, from any contents -/

section Stretches

variable (W : Valuation τ sig (Elt Ideal))

theorem first_preds : after (hostOps0_1 (F := Ideal)) (after (hostOps0 (F := Ideal)) W) (Proc.devRef .tc main_v0)
    = shapeCast S4096x50x256 (W (Proc.devRef .tc main_arg1)) shapeCasts_S4096x50x4x64_S4096x50x256 := by
  after_results_simp; rfl

theorem first_mask : after (hostOps0_1 (F := Ideal)) (after (hostOps0 (F := Ideal)) W) (Proc.devRef .tc main_v2)
    = Cert.ReferenceIdeal.Read.val_main_v2 (F := Ideal) (W (Proc.devRef .tc main_arg0)) := by
  after_results_simp; rfl

theorem first_weights : after (hostOps0_1 (F := Ideal)) (after (hostOps0 (F := Ideal)) W) (Proc.devRef .tc main_v17)
    = weightsOf (Cert.ReferenceIdeal.Read.val_main_v2 (F := Ideal) (W (Proc.devRef .tc main_arg0))) (W (Proc.devRef .tc main_arg2)) := by
  after_results_simp; rfl

theorem first_logits : after (hostOps0_1 (F := Ideal)) (after (hostOps0 (F := Ideal)) W) (Proc.devRef .tc main_arg2)
    = W (Proc.devRef .tc main_arg2) := by
  after_results_simp

theorem second_weights : after (hostOps1_1 (F := Ideal)) (after (hostOps1 (F := Ideal)) W) (Proc.devRef .tc main_v33)
    = weightsOf (W (Proc.devRef .tc main_v2)) (W (Proc.devRef .tc main_v18)) := by
  after_results_simp; rfl

theorem second_preds : after (hostOps1_1 (F := Ideal)) (after (hostOps1 (F := Ideal)) W) (Proc.devRef .tc main_v0)
    = W (Proc.devRef .tc main_v0) := by
  after_results_simp

theorem second_mask : after (hostOps1_1 (F := Ideal)) (after (hostOps1 (F := Ideal)) W) (Proc.devRef .tc main_v2)
    = W (Proc.devRef .tc main_v2) := by
  after_results_simp

theorem second_logits : after (hostOps1_1 (F := Ideal)) (after (hostOps1 (F := Ideal)) W) (Proc.devRef .tc main_v18)
    = W (Proc.devRef .tc main_v18) := by
  after_results_simp

theorem third_weights : after (hostOps2_1 (F := Ideal)) (after (hostOps2 (F := Ideal)) W) (Proc.devRef .tc main_v49)
    = weightsOf (W (Proc.devRef .tc main_v2)) (W (Proc.devRef .tc main_v34)) := by
  after_results_simp; rfl

theorem third_preds : after (hostOps2_1 (F := Ideal)) (after (hostOps2 (F := Ideal)) W) (Proc.devRef .tc main_v0)
    = W (Proc.devRef .tc main_v0) := by
  after_results_simp

end Stretches

/-! ## The boundaries, one after the other -/

variable (m : (ℓ : Loc nD τ sig) → Buf (Elt Ideal) ℓ) (ρ : Dev nD → PrngReg)

/-- The three arguments' launch contents on core `c`. -/
abbrev maskArg (c : Dev nD) := m ((c : Thread nD τ).loc main_arg0)
abbrev predsArg (c : Dev nD) := m ((c : Thread nD τ).loc main_arg1)
abbrev logitsArg (c : Dev nD) := m ((c : Thread nD τ).loc main_arg2)

/-- The predictions re-laid to lanes, and the mask broadcast over the capsules. -/
abbrev lanes (c : Dev nD) : FVec Ideal S4096x50x256 .f32 :=
  shapeCast S4096x50x256 (predsArg m c) shapeCasts_S4096x50x4x64_S4096x50x256
abbrev maskB (c : Dev nD) := Cert.ReferenceIdeal.Read.val_main_v2 (F := Ideal) (maskArg m c)

/-- Region 0's entry: the lanes, the broadcast mask, the first weights, the logits as launched. -/
theorem at2_preds (c : Dev nD) : W2 m ρ c (Proc.devRef .tc main_v0) = lanes m c := first_preds (W0 m ρ c)
theorem at2_mask (c : Dev nD) : W2 m ρ c (Proc.devRef .tc main_v2) = maskB m c := first_mask (W0 m ρ c)
theorem at2_weights (c : Dev nD) : W2 m ρ c (Proc.devRef .tc main_v17) = weightsOf (maskB m c) (logitsArg m c) := first_weights (W0 m ρ c)
theorem at2_logits (c : Dev nD) : W2 m ρ c (Proc.devRef .tc main_arg2) = logitsArg m c := first_logits (W0 m ρ c)

/-- Region 0's exit: the logits after one round; the lanes (an input array of the region, never written) and the mask
    (no array of the region) as they were. -/
theorem at3_logits (c : Dev nD) : W3 m ρ c (Proc.devRef .tc main_v18) = kround (maskB m c) (lanes m c) (logitsArg m c) := by
  have h := (W3_arr m ρ c 3).trans (Cert.KernelIdeal.Arrays0.final (V2 m ρ) c)
  refine h.trans ?_
  show stepArr (W2 m ρ c (Proc.devRef .tc main_v0)) (W2 m ρ c (Proc.devRef .tc main_v17)) (W2 m ρ c (Proc.devRef .tc main_arg2)) = _
  rw [at2_preds, at2_weights, at2_logits]
  rfl
theorem at3_preds (c : Dev nD) : W3 m ρ c (Proc.devRef .tc main_v0) = lanes m c :=
  ((W3_arr m ρ c 0).trans (((dat0 (V2 m ρ) c).arrAt_in 0 rfl _).trans (A_eq0 (V2 m ρ) c 0))).trans (at2_preds m ρ c)
theorem at3_mask (c : Dev nD) : W3 m ρ c (Proc.devRef .tc main_v2) = maskB m c :=
  (W3_of_ne m ρ c main_v2 (by decide)).trans (at2_mask m ρ c)

/-- Region 1's entry. -/
theorem at5_weights (c : Dev nD) : W5 m ρ c (Proc.devRef .tc main_v33)
    = weightsOf (maskB m c) (kround (maskB m c) (lanes m c) (logitsArg m c)) := by
  refine (second_weights (W3 m ρ c)).trans ?_
  rw [at3_mask, at3_logits]
theorem at5_preds (c : Dev nD) : W5 m ρ c (Proc.devRef .tc main_v0) = lanes m c :=
  (second_preds (W3 m ρ c)).trans (at3_preds m ρ c)
theorem at5_mask (c : Dev nD) : W5 m ρ c (Proc.devRef .tc main_v2) = maskB m c :=
  (second_mask (W3 m ρ c)).trans (at3_mask m ρ c)
theorem at5_logits (c : Dev nD) : W5 m ρ c (Proc.devRef .tc main_v18) = kround (maskB m c) (lanes m c) (logitsArg m c) :=
  (second_logits (W3 m ρ c)).trans (at3_logits m ρ c)

/-- Region 1's exit: the logits after two rounds. -/
theorem at6_logits (c : Dev nD) : W6 m ρ c (Proc.devRef .tc main_v34)
    = kround (maskB m c) (lanes m c) (kround (maskB m c) (lanes m c) (logitsArg m c)) := by
  have h := (W6_arr m ρ c 3).trans (Cert.KernelIdeal.Arrays1.final (V5 m ρ) c)
  refine h.trans ?_
  show stepArr (W5 m ρ c (Proc.devRef .tc main_v0)) (W5 m ρ c (Proc.devRef .tc main_v33)) (W5 m ρ c (Proc.devRef .tc main_v18)) = _
  rw [at5_preds, at5_weights, at5_logits]
  rfl
theorem at6_preds (c : Dev nD) : W6 m ρ c (Proc.devRef .tc main_v0) = lanes m c :=
  ((W6_arr m ρ c 0).trans (((dat1 (V5 m ρ) c).arrAt_in 0 rfl _).trans (A_eq1 (V5 m ρ) c 0))).trans (at5_preds m ρ c)
theorem at6_mask (c : Dev nD) : W6 m ρ c (Proc.devRef .tc main_v2) = maskB m c :=
  (W6_of_ne m ρ c main_v2 (by decide)).trans (at5_mask m ρ c)

/-- Region 2's entry. -/
theorem at8_weights (c : Dev nD) : W8 m ρ c (Proc.devRef .tc main_v49)
    = weightsOf (maskB m c) (kround (maskB m c) (lanes m c) (kround (maskB m c) (lanes m c) (logitsArg m c))) := by
  refine (third_weights (W6 m ρ c)).trans ?_
  rw [at6_mask, at6_logits]
theorem at8_preds (c : Dev nD) : W8 m ρ c (Proc.devRef .tc main_v0) = lanes m c :=
  (third_preds (W6 m ρ c)).trans (at6_preds m ρ c)

/-- THE RESULT BUFFER at the last boundary: the third round's capsules. -/
theorem result_at9 (c : Dev nD) : W9 m ρ c (Proc.devRef .tc main_v50) = krouted (maskB m c) (lanes m c) (logitsArg m c) := by
  have h := (W9_arr m ρ c 2).trans (Cert.KernelIdeal.Arrays2.final (V8 m ρ) c)
  refine h.trans ?_
  show capsArr (W8 m ρ c (Proc.devRef .tc main_v0)) (W8 m ρ c (Proc.devRef .tc main_v49)) = _
  rw [at8_preds, at8_weights]
  rfl

end Cert.KernelIdeal.Rounds

end
-- ==== Proof.Bridge.lean ====
/-
  The kernel's three rounds on arrays are the specification's three rounds.

  The kernel re-lays the predictions `[4096, 50, 4, 64]` to `[4096, 50, 256]`: capsule `k`'s hidden coordinate `h`
  goes to lane `64 k + h`, the same row-major position, so row `b` of the lane-laid predictions read at
  `(s, 64 k + h)` is row `b` of the predictions at `(s, k, h)`. With that, one round on arrays is the specification's
  round, and the weights function at the mask's broadcast is the reference's weights stage.
-/
import proofs.«110791_j42090679501341_2_alg».proof.Proof.KernelRounds

noncomputable section

namespace Cert.KernelIdeal.Rounds

open Cert.KernelIdeal Cert.KernelIdeal.Gen Cert.KernelIdeal.Arrays Cert.KernelIdeal.Pieces Cert.Routing
open Idealize.ShloMosaic Idealize.ShloMosaic.TcCoe Idealize.ShloMosaic.ValueIdx

/-- The predictions re-laid to lanes. -/
abbrev toLanes (x1 : (⟨S4096x50x4x64, .f32⟩ : BufTy).Contents (Elt Ideal)) : FVec Ideal S4096x50x256 .f32 :=
  shapeCast S4096x50x256 x1 shapeCasts_S4096x50x4x64_S4096x50x256

/-- Row `b` of the lane-laid predictions is row `b` of the predictions. -/
theorem arrX_lanes (x1 : (⟨S4096x50x4x64, .f32⟩ : BufTy).Contents (Elt Ideal)) (b : Fin 4096) :
    arrX (toLanes x1) b = rowX x1 b := by
  funext s k h
  show shapeCast S4096x50x256 x1 shapeCasts_S4096x50x4x64_S4096x50x256 (ix3 b s (lane k h)) = x1 (ix4 b s k h)
  refine shapeCast_apply x1 shapeCasts_S4096x50x4x64_S4096x50x256 (ix3 b s (lane k h)) (ix4 b s k h) ?_
  rw [Shape.rowMajor_val_four, Shape.rowMajor_val_three]
  show ((b.val * 50 + s.val) * 4 + k.val) * 64 + h.val = (b.val * 50 + s.val) * 256 + (64 * k.val + h.val)
  omega

theorem stepArr_lanes (x1 : (⟨S4096x50x4x64, .f32⟩ : BufTy).Contents (Elt Ideal)) (w cw : FVec Ideal S4096x4x50 .f32) :
    stepArr (toLanes x1) w cw = step x1 w cw := by
  funext i
  exact congrArg (fun X : RowX => cw i + agreeRow (rowW w (i 0)) X (i 1) (i 2)) (arrX_lanes x1 (i 0))

theorem capsArr_lanes (x1 : (⟨S4096x50x4x64, .f32⟩ : BufTy).Contents (Elt Ideal)) (w : FVec Ideal S4096x4x50 .f32) :
    capsArr (toLanes x1) w = capsules x1 w := by
  funext i
  exact congrArg (fun X : RowX => capsuleRow (rowW w (i 0)) X (i 1) (i 2)) (arrX_lanes x1 (i 0))

/-- One round on arrays is the specification's round with the reference's weights stage. -/
theorem kround_eq (x0 : (⟨S4096x50, .i32⟩ : BufTy).Contents (Elt Ideal)) (x1 : (⟨S4096x50x4x64, .f32⟩ : BufTy).Contents (Elt Ideal))
    (cw : FVec Ideal S4096x4x50 .f32) :
    kround (Cert.ReferenceIdeal.Read.val_main_v2 (F := Ideal) x0) (toLanes x1) cw
      = round (fun c => Cert.ReferenceIdeal.Read.val_main_v17 (F := Ideal) x0 c) x1 cw := by
  unfold kround
  rw [stepArr_lanes, weightsOf_ref]
  rfl

/-- The three rounds on arrays are the specification's `routed`. -/
theorem krouted_eq (x0 : (⟨S4096x50, .i32⟩ : BufTy).Contents (Elt Ideal)) (x1 : (⟨S4096x50x4x64, .f32⟩ : BufTy).Contents (Elt Ideal))
    (cw : FVec Ideal S4096x4x50 .f32) :
    krouted (Cert.ReferenceIdeal.Read.val_main_v2 (F := Ideal) x0) (toLanes x1) cw
      = routed (fun c => Cert.ReferenceIdeal.Read.val_main_v17 (F := Ideal) x0 c) x1 cw := by
  unfold krouted
  rw [capsArr_lanes, weightsOf_ref, kround_eq, kround_eq]
  rfl

end Cert.KernelIdeal.Rounds

end
-- ==== Proof.RefRounds.lean ====
/-
  The reference program's three routing rounds, read index by index, are the routing specification.

  One round of the program is a function of the mask, the predictions `x` and the round's logits `cw`. It first forms
  the round's weights `w = W cw` (a softmax over the batch followed by the mask: a chain that is never opened here),
  and then, for every batch row `b`, capsule `k`, position `s` and hidden coordinate `h`,
    the vote            v b k h  = Σ_s w b k s · x b s k h,
    its squared norm    c b k    = 0 + Σ_h v b k h · v b k h,
    the squash factor   f b k    = (c / (1 + c)) / √(c + ε),
    the capsule         ic b k h = f b k · v b k h,
    the agreement       d b k s  = Σ_h x b s k h · ic b k h,
    the new logits      cw b k s + d b k s.
  Each lemma below identifies one of these stages, read at explicit coordinates, with the specification's function
  for it. The second and the third round are the first round's functions applied to the logits the round before
  produced, so the result is the third round's capsules at the twice-moved logits.
-/
import proofs.«110791_j42090679501341_2_alg».proof.Proof.RefReadP
import proofs.«110791_j42090679501341_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.Routing (squash vote normSq capsuleRow agreeRow rowW rowX)

/-! ## Where each stage reads its operands

Every stage reads its operands at an index computed from its own; at explicit coordinates these are again
explicit coordinates. The unit axes carry the coordinate `0`. -/

/-- Summing over positions `s` for the vote at `(b, k, ·, h)`, the weights are read at `(b, k, s)`. -/
theorem weights_idx (b : Fin 4096) (k : Fin 4) (h : Fin 64) (s : Fin 50) :
    idx_main_v18 (lidx_main_v19 (ix4 b k (0 : Fin 1) h) s) = ix3 b k s :=
  funext fun a => Fin.ext (by match a with | ⟨0, _⟩ => rfl | ⟨1, _⟩ => rfl | ⟨2, _⟩ => rfl)

/-- Summing over positions `s` for the vote at `(b, k, ·, h)`, the predictions are read at `(b, s, k, h)`. -/
theorem preds_idx_vote (b : Fin 4096) (k : Fin 4) (h : Fin 64) (s : Fin 50) :
    idx_main_v0 (ridx_main_v19 (ix4 b k (0 : Fin 1) h) s) = ix4 b s k h :=
  funext fun a => Fin.ext (by match a with | ⟨0, _⟩ => rfl | ⟨1, _⟩ => rfl | ⟨2, _⟩ => rfl | ⟨3, _⟩ => rfl)

/-- Summing over hidden coordinates `h` for the squared norm at `(b, k, ·)`, the vote is read at `(b, k, ·, h)`. -/
theorem vote_idx_norm (b : Fin 4096) (k : Fin 4) (h : Fin 64) :
    idx_main_v21 (ix3 b k (0 : Fin 1)) h = ix4 b k (0 : Fin 1) h :=
  funext fun a => Fin.ext (by match a with | ⟨0, _⟩ => rfl | ⟨1, _⟩ => rfl | ⟨2, _⟩ => rfl | ⟨3, _⟩ => rfl)

/-- The squared norm with one more unit axis is read from the one without it. -/
theorem norm_idx (b : Fin 4096) (k : Fin 4) :
    idx_main_v22 (ix4 b k (0 : Fin 1) (0 : Fin 1)) = ix3 b k (0 : Fin 1) :=
  funext fun a => Fin.ext (by match a with | ⟨0, _⟩ => rfl | ⟨1, _⟩ => rfl | ⟨2, _⟩ => rfl)

/-- The squash factor spread along the hidden axis is read at the hidden coordinate `0`. -/
theorem factor_idx (b : Fin 4096) (k : Fin 4) (h : Fin 64) :
    idx_main_v30 (ix4 b k (0 : Fin 1) h) = ix4 b k (0 : Fin 1) (0 : Fin 1) :=
  funext fun a => Fin.ext (by match a with | ⟨0, _⟩ => rfl | ⟨1, _⟩ => rfl | ⟨2, _⟩ => rfl | ⟨3, _⟩ => rfl)

/-- Summing over hidden coordinates `h` for the agreement at `(b, k, s, ·)`, the predictions are read at `(b, s, k, h)`. -/
theorem preds_idx_agree (b : Fin 4096) (k : Fin 4) (s : Fin 50) (h : Fin 64) :
    idx_main_v0 (lidx_main_v33 (ix4 b k s (0 : Fin 1)) h) = ix4 b s k h :=
  funext fun a => Fin.ext (by match a with | ⟨0, _⟩ => rfl | ⟨1, _⟩ => rfl | ⟨2, _⟩ => rfl | ⟨3, _⟩ => rfl)

/-- Summing over hidden coordinates `h` for the agreement at `(b, k, s, ·)`, the capsule is read at `(b, k, ·, h)`. -/
theorem caps_idx_agree (b : Fin 4096) (k : Fin 4) (s : Fin 50) (h : Fin 64) :
    idx_main_v32 (ridx_main_v33 (ix4 b k s (0 : Fin 1)) h) = ix4 b k (0 : Fin 1) h :=
  funext fun a => Fin.ext (by match a with | ⟨0, _⟩ => rfl | ⟨1, _⟩ => rfl | ⟨2, _⟩ => rfl | ⟨3, _⟩ => rfl)

/-- Dropping the agreement's unit axis keeps the coordinates: the row-major position `(b·4 + k)·50 + s` splits back
    into `b`, `k`, `s`. -/
theorem agree_idx (b : Fin 4096) (k : Fin 4) (s : Fin 50) :
    idx_main_v34 (ix3 b k s) = ix4 b k s (0 : Fin 1) := by
  have hb := b.isLt
  have hk := k.isLt
  have hs := s.isLt
  funext a
  apply Fin.ext
  match a with
  | ⟨0, _⟩ => show ((b.val * 4 + k.val) * 50 + s.val) / 200 = b.val; omega
  | ⟨1, _⟩ => show ((b.val * 4 + k.val) * 50 + s.val) / 50 % 4 = k.val; omega
  | ⟨2, _⟩ => show ((b.val * 4 + k.val) * 50 + s.val) / 1 % 50 = s.val; omega
  | ⟨3, _⟩ => rfl

/-- Dropping the capsules' unit axis keeps the coordinates: the row-major position `(b·4 + k)·64 + h` splits back
    into `b`, `k`, `h`. -/
theorem caps_idx_out (b : Fin 4096) (k : Fin 4) (h : Fin 64) :
    idx_main_v98 (ix3 b k h) = ix4 b k (0 : Fin 1) h := by
  have hb := b.isLt
  have hk := k.isLt
  have hh := h.isLt
  funext a
  apply Fin.ext
  match a with
  | ⟨0, _⟩ => show ((b.val * 4 + k.val) * 64 + h.val) / 256 = b.val; omega
  | ⟨1, _⟩ => show ((b.val * 4 + k.val) * 64 + h.val) / 64 % 4 = k.val; omega
  | ⟨2, _⟩ => rfl
  | ⟨3, _⟩ => show ((b.val * 4 + k.val) * 64 + h.val) % 64 = h.val; omega

/-! ## One round, stage by stage -/

variable (x0 : (⟨S4096x50, .i32⟩ : BufTy).Contents (Elt Ideal))
  (x1 : (⟨S4096x50x4x64, .f32⟩ : BufTy).Contents (Elt Ideal))
  (cw : (⟨S4096x4x50, .f32⟩ : BufTy).Contents (Elt Ideal))

/-- The program's first contraction, read at `(b, k, ·, h)`, is the weighted vote `Σ_s w b k s · x b s k h` of
    capsule `k` in row `b`, with `w` the round's weights. -/
theorem vote_eq (b : Fin 4096) (k : Fin 4) (h : Fin 64) :
    val_main_v19 (F := Ideal) x0 x1 cw (ix4 b k (0 : Fin 1) h)
      = vote (rowW (val_main_v17 (F := Ideal) x0 cw) b) (rowX x1 b) k h := by
  rw [val_main_v19_apply]
  unfold Cert.Routing.vote
  refine Finset.sum_congr rfl fun s _ => ?_
  rw [val_main_v18_apply, val_main_v0_apply, weights_idx, preds_idx_vote]
  generalize val_main_v17 (F := Ideal) x0 cw = w
  rfl

/-- The sum of the squared vote over the hidden axis, started at zero, is the vote's squared norm. -/
theorem normSq_eq (b : Fin 4096) (k : Fin 4) :
    val_main_v21 (F := Ideal) x0 x1 cw (ix3 b k (0 : Fin 1))
      = normSq (rowW (val_main_v17 (F := Ideal) x0 cw) b) (rowX x1 b) k := by
  rw [val_main_v21_apply, val_main_cst_3_apply, Ideal.ofBits_def, Ideal.ofBits_zero_f32, zero_add]
  unfold Cert.Routing.normSq
  refine Finset.sum_congr rfl fun h _ => ?_
  rw [val_main_v20_apply, Ideal.mulf_def, vote_idx_norm, vote_eq]

/-- The factor `(c / (1 + c)) / √(c + ε)` the program computes from the squared norm `c` is the squash factor. -/
theorem factor_eq (b : Fin 4096) (k : Fin 4) :
    val_main_v29 (F := Ideal) x0 x1 cw (ix4 b k (0 : Fin 1) (0 : Fin 1))
      = squash (normSq (rowW (val_main_v17 (F := Ideal) x0 cw) b) (rowX x1 b) k) := by
  rw [val_main_v29_apply, val_main_v25_apply, val_main_v28_apply, val_main_v27_apply, val_main_v24_apply,
    val_main_v23_apply, val_main_v26_apply, val_main_cst_4_apply, val_main_cst_5_apply, val_main_v22_apply,
    norm_idx, normSq_eq]
  simp only [Cert.Routing.squash, Ideal.hostDivf_def, Ideal.hostUnary_sqrt_def, Ideal.addf_def, Ideal.ofBits_def]

/-- The factor times the vote is the squashed capsule. -/
theorem caps_eq (b : Fin 4096) (k : Fin 4) (h : Fin 64) :
    val_main_v31 (F := Ideal) x0 x1 cw (ix4 b k (0 : Fin 1) h)
      = capsuleRow (rowW (val_main_v17 (F := Ideal) x0 cw) b) (rowX x1 b) k h := by
  rw [val_main_v31_apply, Ideal.mulf_def, val_main_v30_apply, factor_idx, factor_eq, vote_eq]
  generalize val_main_v17 (F := Ideal) x0 cw = w
  rfl

/-- The program's second contraction, with its unit axis dropped, is the agreement `Σ_h x b s k h · ic b k h` of
    position `s` with capsule `k`. -/
theorem agree_eq (b : Fin 4096) (k : Fin 4) (s : Fin 50) :
    val_main_v34 (F := Ideal) x0 x1 cw (ix3 b k s)
      = agreeRow (rowW (val_main_v17 (F := Ideal) x0 cw) b) (rowX x1 b) k s := by
  rw [val_main_v34_apply, agree_idx, val_main_v33_apply]
  unfold Cert.Routing.agreeRow
  refine Finset.sum_congr rfl fun h _ => ?_
  rw [val_main_v0_apply, val_main_v32_apply, preds_idx_agree, caps_idx_agree, caps_eq]
  generalize val_main_v17 (F := Ideal) x0 cw = w
  rfl

/-- One round of the program moves the logits as the specification's round does, the weights being the program's own
    function of the round's logits. -/
theorem round_eq :
    val_main_v35 (F := Ideal) x0 x1 cw
      = Cert.Routing.round (fun c => val_main_v17 (F := Ideal) x0 c) x1 cw := by
  funext i
  obtain ⟨b, k, s, rfl⟩ : ∃ (b : Fin 4096) (k : Fin 4) (s : Fin 50), i = ix3 b k s := ⟨i 0, i 1, i 2, eq_ix3 i⟩
  rw [val_main_v35_apply, Ideal.addf_def, agree_eq]
  unfold Cert.Routing.round
  rw [Cert.Routing.step_ix3]

/-! ## The second and the third round

The program repeats the first round's operations on the logits the round before produced; its later stages are the
first round's functions at those logits. -/

/-- The logits after two rounds are the round applied to the logits after one. -/
theorem logits2_eq (x2 : (⟨S4096x4x50, .f32⟩ : BufTy).Contents (Elt Ideal)) :
    val_main_v68 (F := Ideal) x0 x1 x2
      = val_main_v35 (F := Ideal) x0 x1 (val_main_v35 (F := Ideal) x0 x1 x2) := rfl

/-- The third round's capsules are the round's capsules at the logits after two rounds. -/
theorem caps3_eq (x2 : (⟨S4096x4x50, .f32⟩ : BufTy).Contents (Elt Ideal)) :
    val_main_v97 (F := Ideal) x0 x1 x2
      = val_main_v31 (F := Ideal) x0 x1 (val_main_v68 (F := Ideal) x0 x1 x2) := rfl

/-- The program's result is three rounds of routing: the third round's squashed capsules at the logits two rounds
    have moved, every round's weights being the program's own function of that round's logits. -/
theorem result_eq (x0 : (⟨S4096x50, .i32⟩ : BufTy).Contents (Elt Ideal)) (x1 : (⟨S4096x50x4x64, .f32⟩ : BufTy).Contents (Elt Ideal)) (x2 : (⟨S4096x4x50, .f32⟩ : BufTy).Contents (Elt Ideal)) :
    Cert.ReferenceIdeal.Read.val_main_v98 (F := Ideal) x0 x1 x2
      = Cert.Routing.routed (fun cw => Cert.ReferenceIdeal.Read.val_main_v17 (F := Ideal) x0 cw) x1 x2 := by
  funext i
  obtain ⟨b, k, h, rfl⟩ : ∃ (b : Fin 4096) (k : Fin 4) (h : Fin 64), i = ix3 b k h := ⟨i 0, i 1, i 2, eq_ix3 i⟩
  rw [val_main_v98_apply, caps_idx_out, caps3_eq, caps_eq, logits2_eq, round_eq, round_eq]
  unfold Cert.Routing.routed
  rw [Cert.Routing.capsules_ix3]

end Cert.ReferenceIdeal.RefValue

end
-- ==== Proof.RefFold.lean ====
/-
  The reference run's result, stated as a fold of the program's operations over the launch contents, read back as the
  nested stage functions.

  The run's result buffer holds `after ops V` at the result reference: the contents `V` at launch, rewritten by each
  of the 123 operations in order. Every operation writes one buffer with a function of the buffers it reads and
  leaves the others, so the fold read at the result reference is the last operation's function applied to the fold
  read at that operation's operands, and so on down to the three arguments. That composite is the stage function of
  the result, applied to the launch contents of the three arguments.
-/
import proofs.«110791_j42090679501341_2_alg».proof.Proof.RefReadP
import Idealize.ShloMosaic.Lib.StableHlo.Run

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

set_option maxRecDepth 8192 in
set_option maxHeartbeats 4000000 in
/-- The fold of the operations over the launch contents, read at the result buffer, is the result's stage function of
    the three arguments' launch contents. -/
theorem res_eq (m : (ℓ : Loc nD τ sig) → Buf (Elt Ideal) ℓ) (c : Dev nD) :
    Cert.ReferenceIdeal.Value.res_main_v98 (F := Ideal) m c
      = Cert.ReferenceIdeal.Read.val_main_v98 (F := Ideal) (m ((c.tc : Thread nD τ).loc main_arg0)) (m ((c.tc : Thread nD τ).loc main_arg1)) (m ((c.tc : Thread nD τ).loc main_arg2)) := by
  unfold Cert.ReferenceIdeal.Value.res_main_v98
  after_results_simp
  rfl

end Cert.ReferenceIdeal.RefValue

end
-- ==== Proof.lean ====
/-
  Capsule dynamic routing, three rounds: the Pallas kernel against its jnp reference, equal on the extended reals.

  Both programs repeat, three times, "weights = softmax of the logits over the BATCH axis, zeroed where the mask is
  zero", followed, row by row of the batch, by
      vote v = Σ_s w·x,   c = Σ_h v·v,   capsule ic = c / (1 + c) / √(c + ε) · v,   agreement d = Σ_h x·ic,
  with the logits moved by `d` in the first two rounds and `ic` returned from the third (Proof/Spec.lean). The
  reference spells the two sums as batched matrix products; the kernel, 128 rows at a time and capsule by capsule,
  as a broadcast product and a sum along an axis, over the predictions re-laid so that a capsule's hidden coordinates
  are 64 consecutive lanes. At the ideal values both are the same finite sums of the same products: the order of a
  sum, its zero start and the tiling do not matter, no law that fails at an infinity is used, and the softmax, which
  is the same chain of host operations on both sides, is never opened. The precondition is not needed.

  * the kernel: each body's output block as one function of its input blocks (Stages, Pieces, Blocks), each region's
    output array after its 32 write-backs (Arrays0/1/2), the buffers at every boundary of @main (KernelRounds), the
    run with its result named (KernelRun), and that function as the specification's (Bridge);
  * the reference: its run with the result as the fold of its operations, that fold read back round by round
    (RefFold), and the stages as the specification's (RefRounds);
  * the frames of the three programs are their generated runs; the ideal pass rewrote nothing, so `preserves` is `True`.
-/
import proofs.«110791_j42090679501341_2_alg».proof.Defs
import proofs.«110791_j42090679501341_2_alg».proof.Proof.Gen.Kernel
import proofs.«110791_j42090679501341_2_alg».proof.Proof.Gen.Kernel.Frame
import proofs.«110791_j42090679501341_2_alg».proof.Proof.Gen.KernelIdeal
import proofs.«110791_j42090679501341_2_alg».proof.Proof.Gen.KernelIdeal.Frame
import proofs.«110791_j42090679501341_2_alg».proof.Proof.Gen.ReferenceIdeal
import proofs.«110791_j42090679501341_2_alg».proof.Proof.Gen.Pre_finite_inputs
import proofs.«110791_j42090679501341_2_alg».proof.Proof.KernelRun
import proofs.«110791_j42090679501341_2_alg».proof.Proof.Bridge
import proofs.«110791_j42090679501341_2_alg».proof.Proof.RefRounds
import proofs.«110791_j42090679501341_2_alg».proof.Proof.RefFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the same array: the kernel's at its last boundary's contents, which are the
    specification's three rounds of the arguments; the reference's at its operations' fold, which reads back to its last
    stage, the specification's three rounds of ITS arguments; and the arguments agree. -/
theorem algebraic : Cert.algebraic_KernelIdeal_ReferenceIdeal := by
  intro m ρ m' ρ' _ hagree
  refine ⟨fun c => Cert.KernelIdeal.Gen.W9 m ρ c (Proc.devRef .tc Cert.KernelIdeal.main_v50),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, Cert.ReferenceIdeal.RefValue.result_eq, (hagree c).1, (hagree c).2.1, (hagree c).2.2]
  exact ((Cert.KernelIdeal.Rounds.result_at9 m ρ c).trans (Cert.KernelIdeal.Rounds.krouted_eq _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
